-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.sign_bit.Statement Cert.KernelIdeal.S16x4x64x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x192x64x64 : Shape := ⟨4, ![16, 192, 64, 64]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S_ : Shape := ⟨0, ![]⟩

class Facts : Prop where
  bcast_S_S16x192x64x64 : S_.BroadcastsInDim S16x192x64x64 (![] : Fin 0 → Fin S16x192x64x64.rank)
  reducesTo_S16x192x64x64_S_d0_1_2_3 : S16x192x64x64.ReducesTo [0, 1, 2, 3] S_
  h_S_ : 0 < S_.numel
  bcast_S_S192x3x1 : S_.BroadcastsInDim S192x3x1 (![] : Fin 0 → Fin S192x3x1.rank)
  reducesTo_S192x3x1_S_d0_1_2 : S192x3x1.ReducesTo [0, 1, 2] S_
  bcast_S_S192x3x3 : S_.BroadcastsInDim S192x3x3 (![] : Fin 0 → Fin S192x3x3.rank)
  reducesTo_S192x3x3_S_d0_1_2 : S192x3x3.ReducesTo [0, 1, 2] S_
  bcast_S_S192x1x3 : S_.BroadcastsInDim S192x1x3 (![] : Fin 0 → Fin S192x1x3.rank)
  reducesTo_S192x1x3_S_d0_1_2 : S192x1x3.ReducesTo [0, 1, 2] S_
  bcast_S_S192x1x1 : S_.BroadcastsInDim S192x1x1 (![] : Fin 0 → Fin S192x1x1.rank)
  reducesTo_S192x1x1_S_d0_1_2 : S192x1x1.ReducesTo [0, 1, 2] S_

variable [Facts]

def fn_part3 {F : FTy → Type} [FloatOps F] (main_arg11 : FVec F S192x3x1 .f32) (main_v48 : IVec S_ 1) (main_v49 : FVec F S192x3x1 .f32) (main_v50 : FVec F S192x3x1 .f32) : IVec S_ 1 :=
  let main_v51 : IVec S192x3x1 1 := cmpf .olt main_v49 main_v50
  let main_c_19 : IVec S_ 1 := constantI S_ 1 1#1
  let main_v52 : IVec S_ 1 := (fun x v => Host.reduce IntOp.andi x v reducesTo_S192x3x1_S_d0_1_2 h_S_) main_v51 main_c_19
  let main_v53 : IVec S_ 1 := andi main_v48 main_v52
  let main_v54 : FVec F S192x3x1 .f32 := Host.absf main_arg11
  let main_cst_20 : FVec F S_ .f32 := constant S_ .f32 0x7F800000#32
  let main_v55 : FVec F S192x3x1 .f32 := broadcastInDim S192x3x1 ![] bcast_S_S192x3x1 main_cst_20
  let main_v56 : IVec S192x3x1 1 := cmpf .olt main_v54 main_v55
  let main_c_21 : IVec S_ 1 := constantI S_ 1 1#1
  let main_v57 : IVec S_ 1 := (fun x v => Host.reduce IntOp.andi x v reducesTo_S192x3x1_S_d0_1_2 h_S_) main_v56 main_c_21
  let main_v58 : IVec S_ 1 := andi main_v53 main_v57
  main_v58

def fn_part2 {F : FTy → Type} [FloatOps F] (main_arg7 : FVec F S192x3x1 .f32) (main_arg8 : FVec F S192x1x1 .f32) (main_arg9 : FVec F S192x3x1 .f32) (main_arg10 : FVec F S192x3x1 .f32) (main_arg11 : FVec F S192x3x1 .f32) (main_v33 : IVec S_ 1) : IVec S_ 1 :=
  let main_v34 : FVec F S192x3x1 .f32 := Host.absf main_arg7
  let main_cst_12 : FVec F S_ .f32 := constant S_ .f32 0x7F800000#32
  let main_v35 : FVec F S192x3x1 .f32 := broadcastInDim S192x3x1 ![] bcast_S_S192x3x1 main_cst_12
  let main_v36 : IVec S192x3x1 1 := cmpf .olt main_v34 main_v35
  let main_c_13 : IVec S_ 1 := constantI S_ 1 1#1
  let main_v37 : IVec S_ 1 := (fun x v => Host.reduce IntOp.andi x v reducesTo_S192x3x1_S_d0_1_2 h_S_) main_v36 main_c_13
  let main_v38 : IVec S_ 1 := andi main_v33 main_v37
  let main_v39 : FVec F S192x1x1 .f32 := Host.absf main_arg8
  let main_cst_14 : FVec F S_ .f32 := constant S_ .f32 0x7F800000#32
  let main_v40 : FVec F S192x1x1 .f32 := broadcastInDim S192x1x1 ![] bcast_S_S192x1x1 main_cst_14
  let main_v41 : IVec S192x1x1 1 := cmpf .olt main_v39 main_v40
  let main_c_15 : IVec S_ 1 := constantI S_ 1 1#1
  let main_v42 : IVec S_ 1 := (fun x v => Host.reduce IntOp.andi x v reducesTo_S192x1x1_S_d0_1_2 h_S_) main_v41 main_c_15
  let main_v43 : IVec S_ 1 := andi main_v38 main_v42
  let main_v44 : FVec F S192x3x1 .f32 := Host.absf main_arg9
  let main_cst_16 : FVec F S_ .f32 := constant S_ .f32 0x7F800000#32
  let main_v45 : FVec F S192x3x1 .f32 := broadcastInDim S192x3x1 ![] bcast_S_S192x3x1 main_cst_16
  let main_v46 : IVec S192x3x1 1 := cmpf .olt main_v44 main_v45
  let main_c_17 : IVec S_ 1 := constantI S_ 1 1#1
  let main_v47 : IVec S_ 1 := (fun x v => Host.reduce IntOp.andi x v reducesTo_S192x3x1_S_d0_1_2 h_S_) main_v46 main_c_17
  let main_v48 : IVec S_ 1 := andi main_v43 main_v47
  let main_v49 : FVec F S192x3x1 .f32 := Host.absf main_arg10
  let main_cst_18 : FVec F S_ .f32 := constant S_ .f32 0x7F800000#32
  let main_v50 : FVec F S192x3x1 .f32 := broadcastInDim S192x3x1 ![] bcast_S_S192x3x1 main_cst_18
  fn_part3 (F := F) main_arg11 main_v48 main_v49 main_v50

def fn_part1 {F : FTy → Type} [FloatOps F] (main_arg4 : FVec F S192x1x3 .f32) (main_arg5 : FVec F S192x3x1 .f32) (main_arg6 : FVec F S192x3x1 .f32) (main_arg7 : FVec F S192x3x1 .f32) (main_arg8 : FVec F S192x1x1 .f32) (main_arg9 : FVec F S192x3x1 .f32) (main_arg10 : FVec F S192x3x1 .f32) (main_arg11 : FVec F S192x3x1 .f32) (main_v13 : IVec S_ 1) (main_v16 : IVec S192x3x3 1) : IVec S_ 1 :=
  let main_c_5 : IVec S_ 1 := constantI S_ 1 1#1
  let main_v17 : IVec S_ 1 := (fun x v => Host.reduce IntOp.andi x v reducesTo_S192x3x3_S_d0_1_2 h_S_) main_v16 main_c_5
  let main_v18 : IVec S_ 1 := andi main_v13 main_v17
  let main_v19 : FVec F S192x1x3 .f32 := Host.absf main_arg4
  let main_cst_6 : FVec F S_ .f32 := constant S_ .f32 0x7F800000#32
  let main_v20 : FVec F S192x1x3 .f32 := broadcastInDim S192x1x3 ![] bcast_S_S192x1x3 main_cst_6
  let main_v21 : IVec S192x1x3 1 := cmpf .olt main_v19 main_v20
  let main_c_7 : IVec S_ 1 := constantI S_ 1 1#1
  let main_v22 : IVec S_ 1 := (fun x v => Host.reduce IntOp.andi x v reducesTo_S192x1x3_S_d0_1_2 h_S_) main_v21 main_c_7
  let main_v23 : IVec S_ 1 := andi main_v18 main_v22
  let main_v24 : FVec F S192x3x1 .f32 := Host.absf main_arg5
  let main_cst_8 : FVec F S_ .f32 := constant S_ .f32 0x7F800000#32
  let main_v25 : FVec F S192x3x1 .f32 := broadcastInDim S192x3x1 ![] bcast_S_S192x3x1 main_cst_8
  let main_v26 : IVec S192x3x1 1 := cmpf .olt main_v24 main_v25
  let main_c_9 : IVec S_ 1 := constantI S_ 1 1#1
  let main_v27 : IVec S_ 1 := (fun x v => Host.reduce IntOp.andi x v reducesTo_S192x3x1_S_d0_1_2 h_S_) main_v26 main_c_9
  let main_v28 : IVec S_ 1 := andi main_v23 main_v27
  let main_v29 : FVec F S192x3x1 .f32 := Host.absf main_arg6
  let main_cst_10 : FVec F S_ .f32 := constant S_ .f32 0x7F800000#32
  let main_v30 : FVec F S192x3x1 .f32 := broadcastInDim S192x3x1 ![] bcast_S_S192x3x1 main_cst_10
  let main_v31 : IVec S192x3x1 1 := cmpf .olt main_v29 main_v30
  let main_c_11 : IVec S_ 1 := constantI S_ 1 1#1
  let main_v32 : IVec S_ 1 := (fun x v => Host.reduce IntOp.andi x v reducesTo_S192x3x1_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x192x64x64 .f32) (main_arg1 : FVec F S192x3x1 .f32) (main_arg2 : FVec F S192x3x3 .f32) (main_arg3 : FVec F S192x3x3 .f32) (main_arg4 : FVec F S192x1x3 .f32) (main_arg5 : FVec F S192x3x1 .f32) (main_arg6 : FVec F S192x3x1 .f32) (main_arg7 : FVec F S192x3x1 .f32) (main_arg8 : FVec F S192x1x1 .f32) (main_arg9 : FVec F S192x3x1 .f32) (main_arg10 : FVec F S192x3x1 .f32) (main_arg11 : FVec F S192x3x1 .f32) : IVec S_ 1 :=
  let main_v0 : FVec F S16x192x64x64 .f32 := Host.absf main_arg0
  let main_cst : FVec F S_ .f32 := constant S_ .f32 0x7F800000#32
  let main_v1 : FVec F S16x192x64x64 .f32 := broadcastInDim S16x192x64x64 ![] bcast_S_S16x192x64x64 main_cst
  let main_v2 : IVec S16x192x64x64 1 := cmpf .olt main_v0 main_v1
  let main_c : IVec S_ 1 := constantI S_ 1 1#1
  let main_v3 : IVec S_ 1 := (fun x v => Host.reduce IntOp.andi x v reducesTo_S16x192x64x64_S_d0_1_2_3 h_S_) main_v2 main_c
  let main_v4 : FVec F S192x3x1 .f32 := Host.absf main_arg1
  let main_cst_0 : FVec F S_ .f32 := constant S_ .f32 0x7F800000#32
  let main_v5 : FVec F S192x3x1 .f32 := broadcastInDim S192x3x1 ![] bcast_S_S192x3x1 main_cst_0
  let main_v6 : IVec S192x3x1 1 := cmpf .olt main_v4 main_v5
  let main_c_1 : IVec S_ 1 := constantI S_ 1 1#1
  let main_v7 : IVec S_ 1 := (fun x v => Host.reduce IntOp.andi x v reducesTo_S192x3x1_S_d0_1_2 h_S_) main_v6 main_c_1
  let main_v8 : IVec S_ 1 := andi main_v3 main_v7
  let main_v9 : FVec F S192x3x3 .f32 := Host.absf main_arg2
  let main_cst_2 : FVec F S_ .f32 := constant S_ .f32 0x7F800000#32
  let main_v10 : FVec F S192x3x3 .f32 := broadcastInDim S192x3x3 ![] bcast_S_S192x3x3 main_cst_2
  let main_v11 : IVec S192x3x3 1 := cmpf .olt main_v9 main_v10
  let main_c_3 : IVec S_ 1 := constantI S_ 1 1#1
  let main_v12 : IVec S_ 1 := (fun x v => Host.reduce IntOp.andi x v reducesTo_S192x3x3_S_d0_1_2 h_S_) main_v11 main_c_3
  let main_v13 : IVec S_ 1 := andi main_v8 main_v12
  let main_v14 : FVec F S192x3x3 .f32 := Host.absf main_arg3
  let main_cst_4 : FVec F S_ .f32 := constant S_ .f32 0x7F800000#32
  let main_v15 : FVec F S192x3x3 .f32 := broadcastInDim S192x3x3 ![] bcast_S_S192x3x3 main_cst_4
  let main_v16 : IVec S192x3x3 1 := cmpf .olt main_v14 main_v15
  fn_part1 (F := F) main_arg4 main_arg5 main_arg6 main_arg7 main_arg8 main_arg9 main_arg10 main_arg11 main_v13 main_v16
-- ==== Kernel.lean ====
abbrev S16x192x64x64 : Shape := ⟨4, ![16, 192, 64, 64]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S16x4x64x64 : Shape := ⟨4, ![16, 4, 64, 64]⟩
abbrev S4x3x1 : Shape := ⟨3, ![4, 3, 1]⟩
abbrev S4x3x3 : Shape := ⟨3, ![4, 3, 3]⟩
abbrev S4x1x3 : Shape := ⟨3, ![4, 1, 3]⟩
abbrev S4x1x1 : Shape := ⟨3, ![4, 1, 1]⟩
abbrev S1x4x1x1 : Shape := ⟨4, ![1, 4, 1, 1]⟩

abbrev nBuf : Space → Nat
  | .hbm => 13
  | .vmem => 26
  | .smem => 0
  | _ => 0

abbrev bufTy : (tb : Table) → Fin (tcTables nBuf tb) → BufTy
  | .hbm, ⟨0, _⟩ => ⟨S16x192x64x64, .f32⟩
  | .hbm, ⟨1, _⟩ => ⟨S192x3x1, .f32⟩
  | .hbm, ⟨2, _⟩ => ⟨S192x3x3, .f32⟩
  | .hbm, ⟨3, _⟩ => ⟨S192x3x3, .f32⟩
  | .hbm, ⟨4, _⟩ => ⟨S192x1x3, .f32⟩
  | .hbm, ⟨5, _⟩ => ⟨S192x3x1, .f32⟩
  | .hbm, ⟨6, _⟩ => ⟨S192x3x1, .f32⟩
  | .hbm, ⟨7, _⟩ => ⟨S192x3x1, .f32⟩
  | .hbm, ⟨8, _⟩ => ⟨S192x1x1, .f32⟩
  | .hbm, ⟨9, _⟩ => ⟨S192x3x1, .f32⟩
  | .hbm, ⟨10, _⟩ => ⟨S192x3x1, .f32⟩
  | .hbm, ⟨11, _⟩ => ⟨S192x3x1, .f32⟩
  | .hbm, ⟨12, _⟩ => ⟨S16x192x64x64, .f32⟩
  | .local _ .vmem, ⟨0, _⟩ => ⟨S16x4x64x64, .f32⟩
  | .local _ .vmem, ⟨1, _⟩ => ⟨S16x4x64x64, .f32⟩
  | .local _ .vmem, ⟨2, _⟩ => ⟨S4x3x1, .f32⟩
  | .local _ .vmem, ⟨3, _⟩ => ⟨S4x3x1, .f32⟩
  | .local _ .vmem, ⟨4, _⟩ => ⟨S4x3x3, .f32⟩
  | .local _ .vmem, ⟨5, _⟩ => ⟨S4x3x3, .f32⟩
  | .local _ .vmem, ⟨6, _⟩ => ⟨S4x3x3, .f32⟩
  | .local _ .vmem, ⟨7, _⟩ => ⟨S4x3x3, .f32⟩
  | .local _ .vmem, ⟨8, _⟩ => ⟨S4x1x3, .f32⟩
  | .local _ .vmem, ⟨9, _⟩ => ⟨S4x1x3, .f32⟩
  | .local _ .vmem, ⟨10, _⟩ => ⟨S4x3x1, .f32⟩
  | .local _ .vmem, ⟨11, _⟩ => ⟨S4x3x1, .f32⟩
  | .local _ .vmem, ⟨12, _⟩ => ⟨S4x3x1, .f32⟩
  | .local _ .vmem, ⟨13, _⟩ => ⟨S4x3x1, .f32⟩
  | .local _ .vmem, ⟨14, _⟩ => ⟨S4x3x1, .f32⟩
  | .local _ .vmem, ⟨15, _⟩ => ⟨S4x3x1, .f32⟩
  | .local _ .vmem, ⟨16, _⟩ => ⟨S4x1x1, .f32⟩
  | .local _ .vmem, ⟨17, _⟩ => ⟨S4x1x1, .f32⟩
  | .local _ .vmem, ⟨18, _⟩ => ⟨S4x3x1, .f32⟩
  | .local _ .vmem, ⟨19, _⟩ => ⟨S4x3x1, .f32⟩
  | .local _ .vmem, ⟨20, _⟩ => ⟨S4x3x1, .f32⟩
  | .local _ .vmem, ⟨21, _⟩ => ⟨S4x3x1, .f32⟩
  | .local _ .vmem, ⟨22, _⟩ => ⟨S4x3x1, .f32⟩
  | .local _ .vmem, ⟨23, _⟩ => ⟨S4x3x1, .f32⟩
  | .local _ .vmem, ⟨24, _⟩ => ⟨S16x4x64x64, .f32⟩
  | .local _ .vmem, ⟨25, _⟩ => ⟨S16x4x64x64, .f32⟩
  | _, _ => ⟨S16x192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [BitOps F]

abbrev grid0 : Pipeline.Grid := ⟨1, ![48], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x4x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x3x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x3x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x3x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x3x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x3x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x3x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x3x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x3x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x4x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S4x3x1_S4x3x1_0_0_0 : ∀ a, (![0, 0, 0] : Fin 3 → Nat) a + S4x3x1.size a ≤ S4x3x1.size a
  h_S4x3x1 : 0 < S4x3x1.numel
  inb_S4x3x3_S4x3x3_0_0_0 : ∀ a, (![0, 0, 0] : Fin 3 → Nat) a + S4x3x3.size a ≤ S4x3x3.size a
  h_S4x3x3 : 0 < S4x3x3.numel
  inb_S4x1x3_S4x1x3_0_0_0 : ∀ a, (![0, 0, 0] : Fin 3 → Nat) a + S4x1x3.size a ≤ S4x1x3.size a
  h_S4x1x3 : 0 < S4x1x3.numel
  inb_S4x1x1_S4x1x1_0_0_0 : ∀ a, (![0, 0, 0] : Fin 3 → Nat) a + S4x1x1.size a ≤ S4x1x1.size a
  h_S4x1x1 : 0 < S4x1x1.numel
  inb_S16x4x64x64_S16x4x64x64_0_0_0_0 : ∀ a, (![0, 0, 0, 0] : Fin 4 → Nat) a + S16x4x64x64.size a ≤ S16x4x64x64.size a
  h_S16x4x64x64 : 0 < S16x4x64x64.numel
  slices_S4x3x1_o0_0_0_S4x1x1 : S4x3x1.Slices ![0, 0, 0] S4x1x1
  shapeCasts_S4x1x1_S1x4x1x1 : S4x1x1.ShapeCasts S1x4x1x1
  broadcasts_S1x4x1x1_S16x4x64x64 : S1x4x1x1.Broadcasts S16x4x64x64
  slices_S4x3x1_o0_1_0_S4x1x1 : S4x3x1.Slices ![0, 1, 0] S4x1x1
  slices_S4x3x1_o0_2_0_S4x1x1 : S4x3x1.Slices ![0, 2, 0] S4x1x1
  slices_S4x3x3_o0_0_0_S4x1x1 : S4x3x3.Slices ![0, 0, 0] S4x1x1
  slices_S4x3x3_o0_0_1_S4x1x1 : S4x3x3.Slices ![0, 0, 1] S4x1x1
  slices_S4x3x3_o0_0_2_S4x1x1 : S4x3x3.Slices ![0, 0, 2] S4x1x1
  slices_S4x3x3_o0_1_0_S4x1x1 : S4x3x3.Slices ![0, 1, 0] S4x1x1
  slices_S4x3x3_o0_1_1_S4x1x1 : S4x3x3.Slices ![0, 1, 1] S4x1x1
  slices_S4x3x3_o0_1_2_S4x1x1 : S4x3x3.Slices ![0, 1, 2] S4x1x1
  slices_S4x3x3_o0_2_0_S4x1x1 : S4x3x3.Slices ![0, 2, 0] S4x1x1
  slices_S4x3x3_o0_2_1_S4x1x1 : S4x3x3.Slices ![0, 2, 1] S4x1x1
  slices_S4x3x3_o0_2_2_S4x1x1 : S4x3x3.Slices ![0, 2, 2] S4x1x1
  slices_S4x1x3_o0_0_0_S4x1x1 : S4x1x3.Slices ![0, 0, 0] S4x1x1
  slices_S4x1x3_o0_0_1_S4x1x1 : S4x1x3.Slices ![0, 0, 1] S4x1x1
  slices_S4x1x3_o0_0_2_S4x1x1 : S4x1x3.Slices ![0, 0, 2] S4x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x64x64.size a ≤ S16x192x64x64.size a
  hwx0_0 : ∀ i : grid0.Coords, EltTy.bits .f32 = 32 ∨ (Rect.block (s := S16x192x64x64) S16x4x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x1.size a ≤ S192x3x1.size a
  hwx0_1 : ∀ i : grid0.Coords, EltTy.bits .f32 = 32 ∨ (Rect.block (s := S192x3x1) S4x3x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3x3.size a ≤ S192x3x3.size a
  hwx0_2 : ∀ i : grid0.Coords, EltTy.bits .f32 = 32 ∨ (Rect.block (s := S192x3x3) S4x3x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x3x3.size a ≤ S192x3x3.size a
  hwx0_3 : ∀ i : grid0.Coords, EltTy.bits .f32 = 32 ∨ (Rect.block (s := S192x3x3) S4x3x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x3.size a ≤ S192x1x3.size a
  hwx0_4 : ∀ i : grid0.Coords, EltTy.bits .f32 = 32 ∨ (Rect.block (s := S192x1x3) S4x1x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x3x1.size a ≤ S192x3x1.size a
  hwx0_5 : ∀ i : grid0.Coords, EltTy.bits .f32 = 32 ∨ (Rect.block (s := S192x3x1) S4x3x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x3x1.size a ≤ S192x3x1.size a
  hwx0_6 : ∀ i : grid0.Coords, EltTy.bits .f32 = 32 ∨ (Rect.block (s := S192x3x1) S4x3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x3x1.size a ≤ S192x3x1.size a
  hwx0_7 : ∀ i : grid0.Coords, EltTy.bits .f32 = 32 ∨ (Rect.block (s := S192x3x1) S4x3x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x1x1.size a ≤ S192x1x1.size a
  hwx0_8 : ∀ i : grid0.Coords, EltTy.bits .f32 = 32 ∨ (Rect.block (s := S192x1x1) S4x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x3x1.size a ≤ S192x3x1.size a
  hwx0_9 : ∀ i : grid0.Coords, EltTy.bits .f32 = 32 ∨ (Rect.block (s := S192x3x1) S4x3x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x3x1.size a ≤ S192x3x1.size a
  hwx0_10 : ∀ i : grid0.Coords, EltTy.bits .f32 = 32 ∨ (Rect.block (s := S192x3x1) S4x3x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x3x1.size a ≤ S192x3x1.size a
  hwx0_11 : ∀ i : grid0.Coords, EltTy.bits .f32 = 32 ∨ (Rect.block (s := S192x3x1) S4x3x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x4x64x64.size a ≤ S16x192x64x64.size a
  hwx0_12 : ∀ i : grid0.Coords, EltTy.bits .f32 = 32 ∨ (Rect.block (s := S16x192x64x64) S16x4x64x64.size (cc0_transform_12 i) (hinb0_12 i)).WholeWords (EltTy.packing .f32)

variable [Facts₀]

abbrev win0_0 : Pipeline.Window sig grid0 :=
  Pipeline.Window.ofSpec (Memref.whole main_arg0) S16x4x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x3x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x3x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x1x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x3x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x3x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x3x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x1x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4x3x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S4x3x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4x3x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0) S16x4x64x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16x192x64x64 : Shape := ⟨4, ![16, 192, 64, 64]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S192x16x64x64 : Shape := ⟨4, ![192, 16, 64, 64]⟩
abbrev S192x1x65536 : Shape := ⟨3, ![192, 1, 65536]⟩
abbrev S_ : Shape := ⟨0, ![]⟩
abbrev S192x3x65536 : Shape := ⟨3, ![192, 3, 65536]⟩

abbrev nBuf : Space → Nat
  | .hbm => 214
  | .vmem => 0
  | .smem => 0
  | _ => 0

abbrev hbmTy0_0 (i : Nat) : BufTy := match i % 128 with
  | 0 => ⟨S16x192x64x64, .f32⟩
  | 1 => ⟨S192x3x1, .f32⟩
  | 2 => ⟨S192x3x3, .f32⟩
  | 3 => ⟨S192x3x3, .f32⟩
  | 4 => ⟨S192x1x3, .f32⟩
  | 5 => ⟨S192x3x1, .f32⟩
  | 6 => ⟨S192x3x1, .f32⟩
  | 7 => ⟨S192x3x1, .f32⟩
  | 8 => ⟨S192x1x1, .f32⟩
  | 9 => ⟨S192x3x1, .f32⟩
  | 10 => ⟨S192x3x1, .f32⟩
  | 11 => ⟨S192x3x1, .f32⟩
  | 12 => ⟨S192x16x64x64, .f32⟩
  | 13 => ⟨S192x1x65536, .f32⟩
  | 14 => ⟨S_, .f32⟩
  | 15 => ⟨S192x1x65536, .f32⟩
  | 16 => ⟨S192x1x65536, .f32⟩
  | 17 => ⟨S_, .f32⟩
  | 18 => ⟨S192x3x1, .f32⟩
  | 19 => ⟨S192x3x1, .f32⟩
  | 20 => ⟨S192x3x1, .f32⟩
  | 21 => ⟨S192x3x1, .f32⟩
  | 22 => ⟨S192x3x1, .i1⟩
  | 23 => ⟨S192x3x1, .f32⟩
  | 24 => ⟨S192x3x1, .f32⟩
  | 25 => ⟨S192x3x1, .f32⟩
  | 26 => ⟨S192x3x1, .f32⟩
  | 27 => ⟨S192x3x1, .f32⟩
  | 28 => ⟨S192x3x1, .f32⟩
  | 29 => ⟨S192x3x1, .f32⟩
  | 30 => ⟨S192x3x1, .f32⟩
  | 31 => ⟨S192x3x65536, .f32⟩
  | 32 => ⟨S192x3x65536, .f32⟩
  | 33 => ⟨S192x3x65536, .f32⟩
  | 34 => ⟨S192x3x1, .f32⟩
  | 35 => ⟨S192x3x65536, .f32⟩
  | 36 => ⟨S192x3x65536, .f32⟩
  | 37 => ⟨S192x3x65536, .f32⟩
  | 38 => ⟨S192x3x65536, .f32⟩
  | 39 => ⟨S_, .f32⟩
  | 40 => ⟨S192x3x3, .f32⟩
  | 41 => ⟨S192x3x3, .f32⟩
  | 42 => ⟨S192x3x3, .f32⟩
  | 43 => ⟨S192x3x3, .f32⟩
  | 44 => ⟨S192x3x3, .i1⟩
  | 45 => ⟨S192x3x3, .f32⟩
  | 46 => ⟨S192x3x3, .f32⟩
  | 47 => ⟨S192x3x3, .f32⟩
  | 48 => ⟨S192x3x3, .f32⟩
  | 49 => ⟨S192x3x3, .f32⟩
  | 50 => ⟨S192x3x3, .f32⟩
  | 51 => ⟨S192x3x3, .f32⟩
  | 52 => ⟨S192x3x3, .f32⟩
  | 53 => ⟨S192x3x65536, .f32⟩
  | 54 => ⟨S192x3x65536, .f32⟩
  | 55 => ⟨S192x3x65536, .f32⟩
  | 56 => ⟨S192x3x1, .f32⟩
  | 57 => ⟨S192x3x65536, .f32⟩
  | 58 => ⟨S192x3x65536, .f32⟩
  | 59 => ⟨S192x3x65536, .f32⟩
  | 60 => ⟨S192x3x65536, .f32⟩
  | 61 => ⟨S_, .f32⟩
  | 62 => ⟨S192x3x3, .f32⟩
  | 63 => ⟨S192x3x3, .f32⟩
  | 64 => ⟨S192x3x3, .f32⟩
  | 65 => ⟨S192x3x3, .f32⟩
  | 66 => ⟨S192x3x3, .i1⟩
  | 67 => ⟨S192x3x3, .f32⟩
  | 68 => ⟨S192x3x3, .f32⟩
  | 69 => ⟨S192x3x3, .f32⟩
  | 70 => ⟨S192x3x3, .f32⟩
  | 71 => ⟨S192x3x3, .f32⟩
  | 72 => ⟨S192x3x3, .f32⟩
  | 73 => ⟨S192x3x3, .f32⟩
  | 74 => ⟨S192x3x3, .f32⟩
  | 75 => ⟨S192x3x65536, .f32⟩
  | 76 => ⟨S192x3x65536, .f32⟩
  | 77 => ⟨S192x3x65536, .f32⟩
  | 78 => ⟨S192x3x1, .f32⟩
  | 79 => ⟨S192x3x65536, .f32⟩
  | 80 => ⟨S192x3x65536, .f32⟩
  | 81 => ⟨S192x3x65536, .f32⟩
  | 82 => ⟨S192x3x65536, .f32⟩
  | 83 => ⟨S_, .f32⟩
  | 84 => ⟨S192x1x3, .f32⟩
  | 85 => ⟨S192x1x3, .f32⟩
  | 86 => ⟨S192x1x3, .f32⟩
  | 87 => ⟨S192x1x3, .f32⟩
  | 88 => ⟨S192x1x3, .i1⟩
  | 89 => ⟨S192x1x3, .f32⟩
  | 90 => ⟨S192x1x3, .f32⟩
  | 91 => ⟨S192x1x3, .f32⟩
  | 92 => ⟨S192x1x3, .f32⟩
  | 93 => ⟨S192x1x3, .f32⟩
  | 94 => ⟨S192x1x3, .f32⟩
  | 95 => ⟨S192x1x3, .f32⟩
  | 96 => ⟨S192x1x3, .f32⟩
  | 97 => ⟨S192x1x65536, .f32⟩
  | 98 => ⟨S192x1x65536, .f32⟩
  | 99 => ⟨S192x1x65536, .f32⟩
  | 100 => ⟨S_, .f32⟩
  | 101 => ⟨S192x1x65536, .f32⟩
  | 102 => ⟨S192x1x65536, .f32⟩
  | 103 => ⟨S_, .f32⟩
  | 104 => ⟨S192x3x1, .f32⟩
  | 105 => ⟨S192x3x1, .f32⟩
  | 106 => ⟨S192x3x1, .f32⟩
  | 107 => ⟨S192x3x1, .f32⟩
  | 108 => ⟨S192x3x1, .i1⟩
  | 109 => ⟨S192x3x1, .f32⟩
  | 110 => ⟨S192x3x1, .f32⟩
  | 111 => ⟨S192x3x1, .f32⟩
  | 112 => ⟨S192x3x1, .f32⟩
  | 113 => ⟨S192x3x1, .f32⟩
  | 114 => ⟨S192x3x1, .f32⟩
  | 115 => ⟨S192x3x1, .f32⟩
  | 116 => ⟨S192x3x1, .f32⟩
  | 117 => ⟨S192x3x65536, .f32⟩
  | 118 => ⟨S192x3x65536, .f32⟩
  | 119 => ⟨S192x3x65536, .f32⟩
  | 120 => ⟨S192x3x1, .f32⟩
  | 121 => ⟨S192x3x65536, .f32⟩
  | 122 => ⟨S192x3x65536, .f32⟩
  | 123 => ⟨S192x3x65536, .f32⟩
  | 124 => ⟨S192x3x65536, .f32⟩
  | 125 => ⟨S_, .f32⟩
  | 126 => ⟨S192x3x3, .f32⟩
  | 127 => ⟨S192x3x3, .f32⟩
  | _ => ⟨S16x192x64x64, .f32⟩

abbrev hbmTy0_1 (i : Nat) : BufTy := match i % 128 with
  | 0 => ⟨S192x3x3, .f32⟩
  | 1 => ⟨S192x3x3, .f32⟩
  | 2 => ⟨S192x3x3, .i1⟩
  | 3 => ⟨S192x3x3, .f32⟩
  | 4 => ⟨S192x3x3, .f32⟩
  | 5 => ⟨S192x3x3, .f32⟩
  | 6 => ⟨S192x3x3, .f32⟩
  | 7 => ⟨S192x3x3, .f32⟩
  | 8 => ⟨S192x3x3, .f32⟩
  | 9 => ⟨S192x3x3, .f32⟩
  | 10 => ⟨S192x3x3, .f32⟩
  | 11 => ⟨S192x3x65536, .f32⟩
  | 12 => ⟨S192x3x65536, .f32⟩
  | 13 => ⟨S192x3x65536, .f32⟩
  | 14 => ⟨S192x3x1, .f32⟩
  | 15 => ⟨S192x3x65536, .f32⟩
  | 16 => ⟨S192x3x65536, .f32⟩
  | 17 => ⟨S192x3x65536, .f32⟩
  | 18 => ⟨S192x3x65536, .f32⟩
  | 19 => ⟨S_, .f32⟩
  | 20 => ⟨S192x3x3, .f32⟩
  | 21 => ⟨S192x3x3, .f32⟩
  | 22 => ⟨S192x3x3, .f32⟩
  | 23 => ⟨S192x3x3, .f32⟩
  | 24 => ⟨S192x3x3, .i1⟩
  | 25 => ⟨S192x3x3, .f32⟩
  | 26 => ⟨S192x3x3, .f32⟩
  | 27 => ⟨S192x3x3, .f32⟩
  | 28 => ⟨S192x3x3, .f32⟩
  | 29 => ⟨S192x3x3, .f32⟩
  | 30 => ⟨S192x3x3, .f32⟩
  | 31 => ⟨S192x3x3, .f32⟩
  | 32 => ⟨S192x3x3, .f32⟩
  | 33 => ⟨S192x3x65536, .f32⟩
  | 34 => ⟨S192x3x65536, .f32⟩
  | 35 => ⟨S192x3x65536, .f32⟩
  | 36 => ⟨S192x3x1, .f32⟩
  | 37 => ⟨S192x3x65536, .f32⟩
  | 38 => ⟨S192x3x65536, .f32⟩
  | 39 => ⟨S192x3x65536, .f32⟩
  | 40 => ⟨S192x3x65536, .f32⟩
  | 41 => ⟨S_, .f32⟩
  | 42 => ⟨S192x1x3, .f32⟩
  | 43 => ⟨S192x1x3, .f32⟩
  | 44 => ⟨S192x1x3, .f32⟩
  | 45 => ⟨S192x1x3, .f32⟩
  | 46 => ⟨S192x1x3, .i1⟩
  | 47 => ⟨S192x1x3, .f32⟩
  | 48 => ⟨S192x1x3, .f32⟩
  | 49 => ⟨S192x1x3, .f32⟩
  | 50 => ⟨S192x1x3, .f32⟩
  | 51 => ⟨S192x1x3, .f32⟩
  | 52 => ⟨S192x1x3, .f32⟩
  | 53 => ⟨S192x1x3, .f32⟩
  | 54 => ⟨S192x1x3, .f32⟩
  | 55 => ⟨S192x1x65536, .f32⟩
  | 56 => ⟨S192x1x65536, .f32⟩
  | 57 => ⟨S192x1x65536, .f32⟩
  | 58 => ⟨S192x1x65536, .f32⟩
  | 59 => ⟨S192x1x65536, .f32⟩
  | 60 => ⟨S192x1x65536, .f32⟩
  | 61 => ⟨S192x1x65536, .f32⟩
  | 62 => ⟨S192x1x65536, .f32⟩
  | 63 => ⟨S192x1x65536, .f32⟩
  | 64 => ⟨S_, .f32⟩
  | 65 => ⟨S192x1x65536, .f32⟩
  | 66 => ⟨S192x1x65536, .f32⟩
  | 67 => ⟨S_, .f32⟩
  | 68 => ⟨S192x1x65536, .f32⟩
  | 69 => ⟨S192x1x65536, .f32⟩
  | 70 => ⟨S192x1x65536, .f32⟩
  | 71 => ⟨S192x1x65536, .f32⟩
  | 72 => ⟨S192x1x65536, .f32⟩
  | 73 => ⟨S_, .f32⟩
  | 74 => ⟨S192x1x65536, .f32⟩
  | 75 => ⟨S192x1x65536, .f32⟩
  | 76 => ⟨S_, .f32⟩
  | 77 => ⟨S192x1x65536, .f32⟩
  | 78 => ⟨S192x1x65536, .f32⟩
  | 79 => ⟨S192x1x65536, .f32⟩
  | 80 => ⟨S192x1x65536, .f32⟩
  | 81 => ⟨S_, .f32⟩
  | 82 => ⟨S192x1x65536, .f32⟩
  | 83 => ⟨S192x1x65536, .f32⟩
  | 84 => ⟨S192x16x64x64, .f32⟩
  | 85 => ⟨S16x192x64x64, .f32⟩
  | _ => ⟨S16x192x64x64, .f32⟩

abbrev hbmTy (i : Nat) : BufTy := match i / 128 with
  | 0 => hbmTy0_0 i
  | 1 => hbmTy0_1 i
  | _ => ⟨S16x192x64x64, .f32⟩

abbrev bufTy : (tb : Table) → Fin (tcTables nBuf tb) → BufTy
  | .hbm, ⟨i, _⟩ => hbmTy i
  | _, _ => ⟨S16x192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_0 : Ref sig .tc := ⟨.hbm, 100, rfl⟩
abbrev main_v35 : Ref sig .tc := ⟨.hbm, 101, rfl⟩
abbrev main_v36 : Ref sig .tc := ⟨.hbm, 102, rfl⟩
abbrev main_call4_cst : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_call5_cst : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_v5 : Ref sig .tc := ⟨.hbm, 131, rfl⟩
abbrev main_call5_v6 : Ref sig .tc := ⟨.hbm, 132, rfl⟩
abbrev main_call5_v7 : Ref sig .tc := ⟨.hbm, 133, rfl⟩
abbrev main_call5_v8 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_call6_cst : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_v5 : Ref sig .tc := ⟨.hbm, 153, rfl⟩
abbrev main_call6_v6 : Ref sig .tc := ⟨.hbm, 154, rfl⟩
abbrev main_call6_v7 : Ref sig .tc := ⟨.hbm, 155, rfl⟩
abbrev main_call6_v8 : Ref sig .tc := ⟨.hbm, 156, rfl⟩
abbrev main_call6_v9 : Ref sig .tc := ⟨.hbm, 157, rfl⟩
abbrev main_call6_v10 : Ref sig .tc := ⟨.hbm, 158, rfl⟩
abbrev main_call6_v11 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_call7_cst : Ref sig .tc := ⟨.hbm, 169, rfl⟩
abbrev main_call7_v0 : Ref sig .tc := ⟨.hbm, 170, rfl⟩
abbrev main_call7_v1 : Ref sig .tc := ⟨.hbm, 171, rfl⟩
abbrev main_call7_v2 : Ref sig .tc := ⟨.hbm, 172, rfl⟩
abbrev main_call7_v3 : Ref sig .tc := ⟨.hbm, 173, rfl⟩
abbrev main_call7_v4 : Ref sig .tc := ⟨.hbm, 174, rfl⟩
abbrev main_call7_v5 : Ref sig .tc := ⟨.hbm, 175, rfl⟩
abbrev main_call7_v6 : Ref sig .tc := ⟨.hbm, 176, rfl⟩
abbrev main_call7_v7 : Ref sig .tc := ⟨.hbm, 177, rfl⟩
abbrev main_call7_v8 : Ref sig .tc := ⟨.hbm, 178, rfl⟩
abbrev main_call7_v9 : Ref sig .tc := ⟨.hbm, 179, rfl⟩
abbrev main_call7_v10 : Ref sig .tc := ⟨.hbm, 180, rfl⟩
abbrev main_call7_v11 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_v69 : Ref sig .tc := ⟨.hbm, 187, rfl⟩
abbrev main_v70 : Ref sig .tc := ⟨.hbm, 188, rfl⟩
abbrev main_v71 : Ref sig .tc := ⟨.hbm, 189, rfl⟩
abbrev main_v72 : Ref sig .tc := ⟨.hbm, 190, rfl⟩
abbrev main_v73 : Ref sig .tc := ⟨.hbm, 191, rfl⟩
abbrev main_cst_1 : Ref sig .tc := ⟨.hbm, 192, rfl⟩
abbrev main_v74 : Ref sig .tc := ⟨.hbm, 193, rfl⟩
abbrev main_v75 : Ref sig .tc := ⟨.hbm, 194, rfl⟩
abbrev main_cst_2 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_cst_3 : Ref sig .tc := ⟨.hbm, 201, rfl⟩
abbrev main_v81 : Ref sig .tc := ⟨.hbm, 202, rfl⟩
abbrev main_v82 : Ref sig .tc := ⟨.hbm, 203, rfl⟩
abbrev main_cst_4 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_cst_5 : Ref sig .tc := ⟨.hbm, 209, rfl⟩
abbrev main_v87 : Ref sig .tc := ⟨.hbm, 210, rfl⟩
abbrev main_v88 : Ref sig .tc := ⟨.hbm, 211, rfl⟩
abbrev main_v89 : Ref sig .tc := ⟨.hbm, 212, rfl⟩
abbrev main_v90 : Ref sig .tc := ⟨.hbm, 213, rfl⟩

abbrev nD : Nat := 1
abbrev τ : Topo := Topo.v7x

variable {F : FTy → Type} [FloatOps F]

class Facts₀ : Prop where
  transposes_S16x192x64x64_S192x16x64x64_1_0_2_3 : S16x192x64x64.Transposes [1, 0, 2, 3] S192x16x64x64
  shapeCasts_S192x16x64x64_S192x1x65536 : S192x16x64x64.ShapeCasts S192x1x65536
  bcast_S_S192x1x65536 : S_.BroadcastsInDim S192x1x65536 (![] : Fin 0 → Fin S192x1x65536.rank)
  bcast_S_S192x3x1 : S_.BroadcastsInDim S192x3x1 (![] : Fin 0 → Fin S192x3x1.rank)
  bcast_S192x3x1_S192x3x65536_0_1_2 : S192x3x1.BroadcastsInDim S192x3x65536 (![0, 1, 2] : Fin 3 → Fin S192x3x65536.rank)
  bcast_S_S192x3x3 : S_.BroadcastsInDim S192x3x3 (![] : Fin 0 → Fin S192x3x3.rank)
  bcast_S_S192x1x3 : S_.BroadcastsInDim S192x1x3 (![] : Fin 0 → Fin S192x1x3.rank)
  bcast_S192x1x1_S192x1x65536_0_1_2 : S192x1x1.BroadcastsInDim S192x1x65536 (![0, 1, 2] : Fin 3 → Fin S192x1x65536.rank)
  shapeCasts_S192x1x65536_S192x16x64x64 : S192x1x65536.ShapeCasts S192x16x64x64
  transposes_S192x16x64x64_S16x192x64x64_1_0_2_3 : S192x16x64x64.Transposes [1, 0, 2, 3] S16x192x64x64
  dot_S192x3x1_S192x1x65536_S192x3x65536_2_1_1_2_0_0_wf : DotDims.WF S192x3x1 S192x1x65536 S192x3x65536 [2] [1] [1] [2] [0] [0]
  dot_S192x3x3_S192x3x65536_S192x3x65536_2_1_1_2_0_0_wf : DotDims.WF S192x3x3 S192x3x65536 S192x3x65536 [2] [1] [1] [2] [0] [0]
  dot_S192x1x3_S192x3x65536_S192x1x65536_2_1_1_2_0_0_wf : DotDims.WF S192x1x3 S192x3x65536 S192x1x65536 [2] [1] [1] [2] [0] [0]

variable [Facts₀]

def dot_S192x3x1_S192x1x65536_S192x3x65536_2_1_1_2_0_0 : DotDims S192x3x1 S192x1x65536 S192x3x65536 where
  lhsContracting := [2]
  rhsContracting := [1]
  lhsNonContracting := [1]
  rhsNonContracting := [2]
  lhsBatch := [0]
  rhsBatch := [0]
  wf := dot_S192x3x1_S192x1x65536_S192x3x65536_2_1_1_2_0_0_wf
def dot_S192x3x3_S192x3x65536_S192x3x65536_2_1_1_2_0_0 : DotDims S192x3x3 S192x3x65536 S192x3x65536 where
  lhsContracting := [2]
  rhsContracting := [1]
  lhsNonContracting := [1]
  rhsNonContracting := [2]
  lhsBatch := [0]
  rhsBatch := [0]
  wf := dot_S192x3x3_S192x3x65536_S192x3x65536_2_1_1_2_0_0_wf
def dot_S192x1x3_S192x3x65536_S192x1x65536_2_1_1_2_0_0 : DotDims S192x1x3 S192x3x65536 S192x1x65536 where
  lhsContracting := [2]
  rhsContracting := [1]
  lhsNonContracting := [1]
  rhsNonContracting := [2]
  lhsBatch := [0]
  rhsBatch := [0]
  wf := dot_S192x1x3_S192x3x65536_S192x1x65536_2_1_1_2_0_0_wf

class Facts : Prop extends Facts₀ where

variable [Facts]
-- ==== Proof.LibChannelCoef.lean ====
/-
  A per-channel coefficient spread over an activation block.

  A kernel that works on a block of activations [B, C, H, W] and keeps a small matrix [C, A, D] per channel reads one
  entry (o, i) of every channel's matrix as a unit-stride slice [C, 1, 1], recasts it to [1, C, 1, 1] and broadcasts it
  over the batch and the two spatial axes.  Read at an entry (b, c, h, w) of the block the result is the matrix entry
  (c, o, i): the batch and spatial coordinates are forgotten and only the channel survives.  The same holds for a
  per-channel scalar [C, 1, 1] recast and broadcast without a slice.
-/
import Idealize.ShloMosaic.Lib.Pipeline.Value
import Idealize.ShloMosaic.Lib.ValueIdx
import Idealize.ShloMosaic.Lib.ValueLayout

noncomputable section

namespace Cert.Lib.ChannelCoef

open Idealize.ShloMosaic Idealize.ShloMosaic.ValueIdx

variable {α : Type}

/-- A [1, C, 1, 1] array broadcast to [B, C, H, W] reads, at (b, c, h, w), the operand at (0, c, 0, 0). -/
theorem broadcastTo_1c11_apply {B C H W : ℕ} (hC : C ≠ 1) (v : (⟨4, ![1, C, 1, 1]⟩ : Shape).Idx → α)
    (hb : (⟨4, ![1, C, 1, 1]⟩ : Shape).Broadcasts ⟨4, ![B, C, H, W]⟩) (b : Fin B) (c : Fin C) (h : Fin H) (w : Fin W) :
    broadcastTo ⟨4, ![B, C, H, W]⟩ v hb (ix4 b c h w) = v (ix4 (0 : Fin 1) c (0 : Fin 1) (0 : Fin 1)) := by
  refine broadcastTo_apply v hb (ix4 b c h w) (ix4 (0 : Fin 1) c (0 : Fin 1) (0 : Fin 1)) fun ax => ?_
  match ax with
  | ⟨0, _⟩ => rfl
  | ⟨1, _⟩ =>
    show c.val = if C = 1 then 0 else c.val
    rw [if_neg hC]
  | ⟨2, _⟩ => rfl
  | ⟨3, _⟩ => rfl

/-- A per-channel scalar [C, 1, 1], recast to [1, C, 1, 1] and broadcast over a block [B, C, H, W], read at
    (b, c, h, w), is channel c's scalar. -/
theorem scalar_apply {B C H W : ℕ} (hC : C ≠ 1) (v : (⟨3, ![C, 1, 1]⟩ : Shape).Idx → α)
    (hc : (⟨3, ![C, 1, 1]⟩ : Shape).ShapeCasts ⟨4, ![1, C, 1, 1]⟩)
    (hb : (⟨4, ![1, C, 1, 1]⟩ : Shape).Broadcasts ⟨4, ![B, C, H, W]⟩) (b : Fin B) (c : Fin C) (h : Fin H) (w : Fin W) :
    broadcastTo ⟨4, ![B, C, H, W]⟩ (shapeCast ⟨4, ![1, C, 1, 1]⟩ v hc) hb (ix4 b c h w)
      = v (ix3 c (0 : Fin 1) (0 : Fin 1)) := by
  rw [broadcastTo_1c11_apply hC, shapeCast_abc_1abc_apply]

/-- Entry (o, i) of every channel's [A, D] matrix, sliced out of [C, A, D], recast and broadcast over a block
    [B, C, H, W], read at (b, c, h, w), is channel c's entry (o, i). -/
theorem entry_apply {B C H W A D : ℕ} (hC : C ≠ 1) (v : (⟨3, ![C, A, D]⟩ : Shape).Idx → α) (o i : ℕ) (ho : o < A) (hi : i < D)
    (hs : (⟨3, ![C, A, D]⟩ : Shape).Slices ![0, o, i] ⟨3, ![C, 1, 1]⟩)
    (hc : (⟨3, ![C, 1, 1]⟩ : Shape).ShapeCasts ⟨4, ![1, C, 1, 1]⟩)
    (hb : (⟨4, ![1, C, 1, 1]⟩ : Shape).Broadcasts ⟨4, ![B, C, H, W]⟩) (b : Fin B) (c : Fin C) (h : Fin H) (w : Fin W) :
    broadcastTo ⟨4, ![B, C, H, W]⟩ (shapeCast ⟨4, ![1, C, 1, 1]⟩ (extractStridedSlice ⟨3, ![C, 1, 1]⟩ ![0, o, i] v hs) hc) hb
        (ix4 b c h w)
      = v (ix3 c ⟨o, ho⟩ ⟨i, hi⟩) := by
  rw [scalar_apply hC]
  refine extractStridedSlice_apply _ v hs (ix3 c (0 : Fin 1) (0 : Fin 1)) (ix3 c ⟨o, ho⟩ ⟨i, hi⟩) fun ax => ?_
  match ax with
  | ⟨0, _⟩ => show c.val = 0 + c.val; omega
  | ⟨1, _⟩ => show o = o + 0; rfl
  | ⟨2, _⟩ => show i = i + 0; rfl

end Cert.Lib.ChannelCoef

end
-- ==== Proof.Likelihood.lean ====
/-
  The likelihood of one activation under a per-channel cumulative-logit network, as one scalar function on the
  extended reals.

  For a channel with raw matrices m0 (3x1), m1, m2 (3x3), m3 (1x3), biases b0, b1, b2 (3) and b3, and gate parameters
  f0, f1, f2 (3), the cumulative logit of a shifted activation z is the four-layer chain

      l0 o = g (f0 o) (sp (m0 o) * z + b0 o)
      l1 o = g (f1 o) (sp (m1 o 0) * l0 0 + sp (m1 o 1) * l0 1 + sp (m1 o 2) * l0 2 + b1 o)
      l2 o = g (f2 o) (sp (m2 o 0) * l1 0 + sp (m2 o 1) * l1 1 + sp (m2 o 2) * l1 2 + b2 o)
      logit = sp (m3 0) * l2 0 + sp (m3 1) * l2 1 + sp (m3 2) * l2 2 + b3

  with sp the softplus max a 0 + log (1 + exp (-|a|)) and g f t = t + tanh f * tanh t.  With lo and up the logits at
  x - 1/2 and x + 1/2 and s = -sign (lo + up), the likelihood is max |sigmoid (s * up) - sigmoid (s * lo)| floor.

  The half and the floor are kept as the words both programs carry; zero, one and minus one are read as numbers.
  Below the chain are the scalar identities that join the two programs' spellings: a comparison of a value with itself
  for inequality is false (there is no NaN among the extended reals), zero minus y is -y, one over one plus exp (-x) is
  the sigmoid, and "1 with the sign of s where |s| > 0, else s" is the sign of s.
-/
import Idealize.ShloMosaic.PureOps.Ideal
import Idealize.ShloMosaic.PureOps.Ideal.Laws
import Idealize.ShloMosaic.PureOps.IdealRules
import Idealize.ShloMosaic.Lib.ValueIdx
import Idealize.ShloMosaic.Lib.IdealHost

noncomputable section

namespace Cert.Bottleneck

open Idealize.ShloMosaic

/-- The shift 1/2, as the word both programs carry. -/
abbrev half : EReal := Ideal.ofBits .f32 0x3F000000#32
/-- The likelihood floor, as the word both programs carry. -/
abbrev floorW : EReal := Ideal.ofBits .f32 0x358637BD#32

/-- Softplus: max a 0 + log (1 + exp (-|a|)). -/
def sp (a : EReal) : EReal := max a 0 + Ideal.log1p (Ideal.exp (-(max a (-a))))

/-- The gated residual t + tanh f * tanh t. -/
def gate (f t : EReal) : EReal := t + Ideal.tanh f * Ideal.tanh t

/-- One channel's raw parameters. -/
structure Params where
  m0 : Fin 3 → EReal
  m1 : Fin 3 → Fin 3 → EReal
  m2 : Fin 3 → Fin 3 → EReal
  m3 : Fin 3 → EReal
  b0 : Fin 3 → EReal
  b1 : Fin 3 → EReal
  b2 : Fin 3 → EReal
  b3 : EReal
  f0 : Fin 3 → EReal
  f1 : Fin 3 → EReal
  f2 : Fin 3 → EReal

/-- Channel c's parameters, read out of the eleven per-channel arrays (any number C of channels). -/
def paramsOf {C : ℕ}
    (m0 : (⟨3, ![C, 3, 1]⟩ : Shape).Idx → EReal) (m1 m2 : (⟨3, ![C, 3, 3]⟩ : Shape).Idx → EReal)
    (m3 : (⟨3, ![C, 1, 3]⟩ : Shape).Idx → EReal) (b0 b1 b2 : (⟨3, ![C, 3, 1]⟩ : Shape).Idx → EReal)
    (b3 : (⟨3, ![C, 1, 1]⟩ : Shape).Idx → EReal) (f0 f1 f2 : (⟨3, ![C, 3, 1]⟩ : Shape).Idx → EReal) (c : Fin C) : Params where
  m0 o := m0 (ValueIdx.ix3 c o (0 : Fin 1))
  m1 o i := m1 (ValueIdx.ix3 c o i)
  m2 o i := m2 (ValueIdx.ix3 c o i)
  m3 i := m3 (ValueIdx.ix3 c (0 : Fin 1) i)
  b0 o := b0 (ValueIdx.ix3 c o (0 : Fin 1))
  b1 o := b1 (ValueIdx.ix3 c o (0 : Fin 1))
  b2 o := b2 (ValueIdx.ix3 c o (0 : Fin 1))
  b3 := b3 (ValueIdx.ix3 c (0 : Fin 1) (0 : Fin 1))
  f0 o := f0 (ValueIdx.ix3 c o (0 : Fin 1))
  f1 o := f1 (ValueIdx.ix3 c o (0 : Fin 1))
  f2 o := f2 (ValueIdx.ix3 c o (0 : Fin 1))

def layer0 (P : Params) (z : EReal) (o : Fin 3) : EReal := gate (P.f0 o) (sp (P.m0 o) * z + P.b0 o)

def layer1 (P : Params) (l : Fin 3 → EReal) (o : Fin 3) : EReal :=
  gate (P.f1 o) (sp (P.m1 o 0) * l 0 + sp (P.m1 o 1) * l 1 + sp (P.m1 o 2) * l 2 + P.b1 o)

def layer2 (P : Params) (l : Fin 3 → EReal) (o : Fin 3) : EReal :=
  gate (P.f2 o) (sp (P.m2 o 0) * l 0 + sp (P.m2 o 1) * l 1 + sp (P.m2 o 2) * l 2 + P.b2 o)

def logit (P : Params) (l : Fin 3 → EReal) : EReal :=
  sp (P.m3 0) * l 0 + sp (P.m3 1) * l 1 + sp (P.m3 2) * l 2 + P.b3

/-- The cumulative logit of a shifted activation. -/
def cum (P : Params) (z : EReal) : EReal := logit P (layer2 P (layer1 P (layer0 P z)))

/-- The likelihood from the two logits. -/
def ofLogits (lo up : EReal) : EReal :=
  max (max (Ideal.logistic (-(Ideal.sign (lo + up)) * up) - Ideal.logistic (-(Ideal.sign (lo + up)) * lo))
        (-(Ideal.logistic (-(Ideal.sign (lo + up)) * up) - Ideal.logistic (-(Ideal.sign (lo + up)) * lo)))) floorW

/-- The likelihood of one activation. -/
def like (P : Params) (x : EReal) : EReal := ofLogits (cum P (x - half)) (cum P (x + half))

/-- The whole likelihood array: entry (b, c, h, w) is the likelihood of x (b, c, h, w) under channel c's parameters. -/
def likeArray {B C H W : ℕ} (x : (⟨4, ![B, C, H, W]⟩ : Shape).Idx → EReal)
    (m0 : (⟨3, ![C, 3, 1]⟩ : Shape).Idx → EReal) (m1 m2 : (⟨3, ![C, 3, 3]⟩ : Shape).Idx → EReal)
    (m3 : (⟨3, ![C, 1, 3]⟩ : Shape).Idx → EReal) (b0 b1 b2 : (⟨3, ![C, 3, 1]⟩ : Shape).Idx → EReal)
    (b3 : (⟨3, ![C, 1, 1]⟩ : Shape).Idx → EReal) (f0 f1 f2 : (⟨3, ![C, 3, 1]⟩ : Shape).Idx → EReal) :
    (⟨4, ![B, C, H, W]⟩ : Shape).Idx → EReal :=
  fun i => like (paramsOf m0 m1 m2 m3 b0 b1 b2 b3 f0 f1 f2 (i 1)) (x i)

theorem likeArray_apply {B C H W : ℕ} (x : (⟨4, ![B, C, H, W]⟩ : Shape).Idx → EReal)
    (m0 : (⟨3, ![C, 3, 1]⟩ : Shape).Idx → EReal) (m1 m2 : (⟨3, ![C, 3, 3]⟩ : Shape).Idx → EReal)
    (m3 : (⟨3, ![C, 1, 3]⟩ : Shape).Idx → EReal) (b0 b1 b2 : (⟨3, ![C, 3, 1]⟩ : Shape).Idx → EReal)
    (b3 : (⟨3, ![C, 1, 1]⟩ : Shape).Idx → EReal) (f0 f1 f2 : (⟨3, ![C, 3, 1]⟩ : Shape).Idx → EReal)
    (b : Fin B) (c : Fin C) (h : Fin H) (w : Fin W) :
    likeArray x m0 m1 m2 m3 b0 b1 b2 b3 f0 f1 f2 (ValueIdx.ix4 b c h w)
      = like (paramsOf m0 m1 m2 m3 b0 b1 b2 b3 f0 f1 f2 c) (x (ValueIdx.ix4 b c h w)) := rfl

/-! ## The spellings -/

/-- No extended real differs from itself. -/
theorem cmp_one_self (y : EReal) : Ideal.cmp .one y y = 0#1 := by
  simp [Ideal.cmp]

theorem cmp_une_self (y : EReal) : Ideal.cmp .une y y = 0#1 := by
  simp [Ideal.cmp]

/-- The absolute value and the comparison, as the extended reals read them. -/
theorem absf_ideal {φ : FTy} (x : Ideal φ) : FloatOps.absf x = max x (-x) := rfl

theorem cmpf_ideal {φ : FTy} (p : CmpFPredicate) (x y : Ideal φ) : FloatOps.cmpf p x y = Ideal.cmp p x y := rfl

/-- Zero, as the word the programs carry, minus y is -y. -/
theorem zero_word_sub (y : EReal) : Ideal.ofBits .f32 0x00000000#32 - y = -y := by
  rw [Ideal.ofBits_zero_f32, zero_sub]

/-- Softplus as the kernel spells it (its 0 - |a - 0| already read as -|a - 0|): the guard for a NaN difference is
    never taken. -/
theorem sp_kernel (a : EReal) :
    Scalar.select (Ideal.cmp .one (a - Ideal.ofBits .f32 0x00000000#32) (a - Ideal.ofBits .f32 0x00000000#32))
        (a + Ideal.ofBits .f32 0x00000000#32)
        (max a (Ideal.ofBits .f32 0x00000000#32)
          + Ideal.log1p (Ideal.exp (-(max (a - Ideal.ofBits .f32 0x00000000#32) (-(a - Ideal.ofBits .f32 0x00000000#32))))))
      = sp a := by
  rw [cmp_one_self, ValueIdx.select_zero, Ideal.ofBits_zero_f32, sub_zero]
  rfl

/-- Softplus as the reference spells it. -/
theorem sp_reference (a : EReal) :
    Scalar.select (Ideal.cmp .une (a - Ideal.ofBits .f32 0x00000000#32) (a - Ideal.ofBits .f32 0x00000000#32))
        (a + Ideal.ofBits .f32 0x00000000#32)
        (max a (Ideal.ofBits .f32 0x00000000#32)
          + Ideal.log1p (Ideal.exp (-(max (a - Ideal.ofBits .f32 0x00000000#32) (-(a - Ideal.ofBits .f32 0x00000000#32))))))
      = sp a := by
  rw [cmp_une_self, ValueIdx.select_zero, Ideal.ofBits_zero_f32, sub_zero]
  rfl

/-- The sigmoid as the reference spells it. -/
theorem logistic_reference (x : EReal) :
    Ideal.div (Ideal.ofBits .f32 0x3F800000#32) (Ideal.ofBits .f32 0x3F800000#32 + Ideal.exp (-x)) = Ideal.logistic x := by
  rw [Ideal.ofBits_one_f32]
  rfl

/-- Minus one, as the kernel's word. -/
theorem ofBits_neg_one_f32 : Ideal.ofBits .f32 0xBF800000#32 = -1 :=
  IdealRules.sign_bit.ideal_negOnePat .f32

/-- The sign as the kernel spells it after its sign-bit step is read as a comparison: where |s| > 0 it is -1 or 1 by
    s < 0, elsewhere it is s itself, which is then 0. -/
theorem sign_kernel (s : EReal) :
    Scalar.select (Ideal.cmp .ogt (max s (-s)) (Ideal.ofBits .f32 0x00000000#32))
        (Scalar.select (Ideal.cmp .olt s (Ideal.ofBits .f32 0x00000000#32))
          (Ideal.ofBits .f32 0xBF800000#32) (Ideal.ofBits .f32 0x3F800000#32))
        s
      = Ideal.sign s := by
  rw [Ideal.ofBits_zero_f32, Ideal.ofBits_one_f32, ofBits_neg_one_f32]
  induction s using EReal.rec with
  | bot => simp [Ideal.cmp, Scalar.select]
  | top => simp [Ideal.cmp, Scalar.select]
  | coe r =>
    rcases lt_trichotomy r 0 with h | h | h
    · have h1 : (0 : EReal) < max (r : EReal) (-(r : EReal)) := by
        apply lt_max_of_lt_right
        rw [← EReal.coe_neg, ← EReal.coe_zero, EReal.coe_lt_coe_iff]; linarith
      have h2 : (r : EReal) < 0 := by rw [← EReal.coe_zero, EReal.coe_lt_coe_iff]; exact h
      simp [Ideal.cmp, Scalar.select, h1, h2, sign_neg h]
    · subst h
      have hs : Ideal.sign (0 : EReal) = 0 := by
        rw [← EReal.coe_zero, Ideal.sign_coe, sign_zero]; simp
      simp [Ideal.cmp, Scalar.select, hs]
    · have h1 : (0 : EReal) < max (r : EReal) (-(r : EReal)) := by
        apply lt_max_of_lt_left
        rw [← EReal.coe_zero, EReal.coe_lt_coe_iff]; exact h
      have h2 : ¬ (r : EReal) < 0 := by rw [← EReal.coe_zero, EReal.coe_lt_coe_iff]; linarith
      simp [Ideal.cmp, Scalar.select, h1, h2, sign_pos h]

end Cert.Bottleneck

end
-- ==== Proof.KernelValue.lean ====
/-
  What the kernel leaves in one block of its output, entry by entry.
-/
import proofs.«168551_j38190849196804_2_alg».proof.Proof.Gen.KernelIdeal.Frame
import proofs.«168551_j38190849196804_2_alg».proof.Proof.LibChannelCoef
import proofs.«168551_j38190849196804_2_alg».proof.Proof.Likelihood
import Idealize.ShloMosaic.Lib.Pipeline.Value
import Idealize.ShloMosaic.Lib.ValueIdx

set_option maxRecDepth 16384

noncomputable section

namespace Cert.KernelIdeal.BlockValue

open Idealize.ShloMosaic Idealize.ShloMosaic.ValueIdx Cert.KernelIdeal Cert.KernelIdeal.Gen Cert.Lib.ChannelCoef Cert.Bottleneck

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! The pointwise vector operations as functions of the index: a vector that is only later read at an index (a
    parameter vector, sliced and broadcast) opens up the same way as one read at once. -/
section Pointwise
variable {s : Shape} {φ : FTy}
theorem mulf_fun (x y : FVec Ideal s φ) : mulf x y = fun i => FloatOps.mulf (x i) (y i) := rfl
theorem addf_fun (x y : FVec Ideal s φ) : addf x y = fun i => FloatOps.addf (x i) (y i) := rfl
theorem subf_fun (x y : FVec Ideal s φ) : subf x y = fun i => FloatOps.subf (x i) (y i) := rfl
theorem maximumf_fun (x y : FVec Ideal s φ) : maximumf x y = fun i => FloatOps.maximumf (x i) (y i) := rfl
theorem absf_fun (x : FVec Ideal s φ) : absf x = fun i => FloatOps.absf (x i) := rfl
theorem exp_fun (x : FVec Ideal s φ) : exp x = fun i => FloatOps.exp (x i) := rfl
theorem log1p_fun (x : FVec Ideal s φ) : log1p x = fun i => FloatOps.log1p (x i) := rfl
theorem tanh_fun (x : FVec Ideal s φ) : tanh x = fun i => FloatOps.tanh (x i) := rfl
theorem logistic_fun (x : FVec Ideal s φ) : logistic x = fun i => FloatOps.logistic (x i) := rfl
theorem cmpf_fun (p : CmpFPredicate) (x y : FVec Ideal s φ) : cmpf p x y = fun i => FloatOps.cmpf p (x i) (y i) := rfl
theorem select_fun {α : Type} (c : IVec s 1) (a b : s.Idx → α) :
    select c a b = fun i => Scalar.select (c i) (a i) (b i) := rfl
theorem broadcast_fun {α : Type} (x : α) : broadcast s x = fun _ => x := rfl
end Pointwise

set_option maxHeartbeats 4000000 in
theorem block_at (x0 : Vec Ideal S16x4x64x64 .f32) (x1 : Vec Ideal S4x3x1 .f32) (x2 x3 : Vec Ideal S4x3x3 .f32)
    (x4 : Vec Ideal S4x1x3 .f32) (x5 x6 x7 : Vec Ideal S4x3x1 .f32) (x8 : Vec Ideal S4x1x1 .f32)
    (x9 x10 x11 : Vec Ideal S4x3x1 .f32) (b : Fin 16) (c : Fin 4) (h w : Fin 64) :
    out0_12 (F := Ideal) x0 x1 x2 x3 x4 x5 x6 x7 x8 x9 x10 x11 (ix4 b c h w)
      = like (paramsOf x1 x2 x3 x4 x5 x6 x7 x8 x9 x10 x11 c) (x0 (ix4 b c h w)) := by
  unfold out0_12
  rw [View.canon_unit_zero hz4]
  simp only [View.ld_unit_zero (S := S4x3x1) hz3, View.ld_unit_zero (S := S4x3x3) hz3, View.ld_unit_zero (S := S4x1x3) hz3,
    View.ld_unit_zero (S := S4x1x1) hz3, View.ld_unit_zero (S := S16x4x64x64) hz4]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, mulf_fun, addf_fun, subf_fun, maximumf_fun, absf_fun, exp_fun, log1p_fun, tanh_fun, logistic_fun, cmpf_fun, select_fun,
    broadcast_fun, constant, Scalar.ofBits]
  simp +decide only [entry_apply (by decide : (4:ℕ) ≠ 1), scalar_apply (by decide : (4:ℕ) ≠ 1)]
  simp only [Ideal.addf_def, Ideal.subf_def, Ideal.mulf_def, Ideal.maximumf_def, absf_ideal, cmpf_ideal, Ideal.exp_def,
    Ideal.log1p_def, Ideal.tanh_def, Ideal.logistic_def, zero_word_sub, sp_kernel, sign_kernel]
  simp only [like, ofLogits, cum, logit, layer2, layer1, layer0, gate, paramsOf]
  rfl

end Cert.KernelIdeal.BlockValue

end
-- ==== Proof.KernelArray.lean ====
/-
  From blocks to the array: after the kernel's run its output array is the whole likelihood array.

  The grid has 48 points; point t stages channels 4t .. 4t+3 of the activations and of every parameter array, and
  writes back the same four channels of the output.  So entry (b, q, h, w) of point t's block is entry
  (b, 4t + q, h, w) of the array, a parameter's entry (q, o, i) in the block is the array's (4t + q, o, i), and every
  channel c lies in the block of point c / 4.
-/
import proofs.«168551_j38190849196804_2_alg».proof.Proof.Gen.KernelIdeal.Frame
import proofs.«168551_j38190849196804_2_alg».proof.Proof.KernelValue
import Idealize.ShloMosaic.Lib.Pipeline.Value

set_option maxRecDepth 16384

noncomputable section

namespace Cert.KernelIdeal.ArrayValue

open Cert.KernelIdeal Cert.KernelIdeal.Gen Cert.KernelIdeal.BlockValue Idealize.ShloMosaic Idealize.ShloMosaic.TcCoe Idealize.SL.Sem
open Idealize.ShloMosaic.ValueIdx Cert.Bottleneck
open Idealize.ShloMosaic.Pipeline (Dat)

variable (m : (ℓ : Loc nD τ sig) → Buf (Elt Ideal) ℓ) (ρ : Dev nD → PrngReg)

/-- Channel q of point t's block is channel 4t + q of the arrays. -/
def chan (t : Fin cfg0.N) (q : Fin 4) : Fin 192 :=
  ⟨4 * t.val + q.val, by have := lt_of_lt_of_eq t.isLt N_0; have := q.isLt; omega⟩

/-! ## The index maps, decided over the 48 points -/

theorem index0 : ∀ t : Fin cfg0.N, win0_0.index t = ![0, t.val, 0, 0] :=
  (by decide +kernel : ∀ t : Fin grid0.N, _)
theorem index12 : ∀ t : Fin cfg0.N, win0_12.index t = ![0, t.val, 0, 0] :=
  (by decide +kernel : ∀ t : Fin grid0.N, _)
theorem index1 : ∀ t : Fin cfg0.N, win0_1.index t = ![t.val, 0, 0] :=
  (by decide +kernel : ∀ t : Fin grid0.N, _)
theorem index2 : ∀ t : Fin cfg0.N, win0_2.index t = ![t.val, 0, 0] :=
  (by decide +kernel : ∀ t : Fin grid0.N, _)
theorem index3 : ∀ t : Fin cfg0.N, win0_3.index t = ![t.val, 0, 0] :=
  (by decide +kernel : ∀ t : Fin grid0.N, _)
theorem index4 : ∀ t : Fin cfg0.N, win0_4.index t = ![t.val, 0, 0] :=
  (by decide +kernel : ∀ t : Fin grid0.N, _)
theorem index5 : ∀ t : Fin cfg0.N, win0_5.index t = ![t.val, 0, 0] :=
  (by decide +kernel : ∀ t : Fin grid0.N, _)
theorem index6 : ∀ t : Fin cfg0.N, win0_6.index t = ![t.val, 0, 0] :=
  (by decide +kernel : ∀ t : Fin grid0.N, _)
theorem index7 : ∀ t : Fin cfg0.N, win0_7.index t = ![t.val, 0, 0] :=
  (by decide +kernel : ∀ t : Fin grid0.N, _)
theorem index8 : ∀ t : Fin cfg0.N, win0_8.index t = ![t.val, 0, 0] :=
  (by decide +kernel : ∀ t : Fin grid0.N, _)
theorem index9 : ∀ t : Fin cfg0.N, win0_9.index t = ![t.val, 0, 0] :=
  (by decide +kernel : ∀ t : Fin grid0.N, _)
theorem index10 : ∀ t : Fin cfg0.N, win0_10.index t = ![t.val, 0, 0] :=
  (by decide +kernel : ∀ t : Fin grid0.N, _)
theorem index11 : ∀ t : Fin cfg0.N, win0_11.index t = ![t.val, 0, 0] :=
  (by decide +kernel : ∀ t : Fin grid0.N, _)

/-! ## A block's entries are the arrays' -/

theorem block0 (c : Dev nD) (t : Fin cfg0.N) (b : Fin 16) (q : Fin 4) (h w : Fin 64) :
    iblk m c 0 t (ix4 b q h w) = V m c main_arg0 (ix4 b (chan t q) h w) := by
  show V m c main_arg0 (((cfg0.win 0).blk t).view.emb (ix4 b q h w)) = _
  refine congrArg _ (funext fun a => Fin.ext ?_)
  have e0 : win0_0.index t (0 : Fin 4) = 0 := congrFun (index0 t) 0
  have e1 : win0_0.index t (1 : Fin 4) = t.val := congrFun (index0 t) 1
  have e2 : win0_0.index t (2 : Fin 4) = 0 := congrFun (index0 t) 2
  have e3 : win0_0.index t (3 : Fin 4) = 0 := congrFun (index0 t) 3
  match a with
  | ⟨0, _⟩ => show win0_0.index t (0 : Fin 4) * 16 + 1 * b.val = b.val; omega
  | ⟨1, _⟩ => show win0_0.index t (1 : Fin 4) * 4 + 1 * q.val = 4 * t.val + q.val; omega
  | ⟨2, _⟩ => show win0_0.index t (2 : Fin 4) * 64 + 1 * h.val = h.val; omega
  | ⟨3, _⟩ => show win0_0.index t (3 : Fin 4) * 64 + 1 * w.val = w.val; omega

theorem block1 (c : Dev nD) (t : Fin cfg0.N) (q : Fin 4) (o : Fin 3) (i : Fin 1) :
    iblk m c 1 t (ix3 q o i) = V m c main_arg1 (ix3 (chan t q) o i) := by
  show V m c main_arg1 (((cfg0.win 1).blk t).view.emb (ix3 q o i)) = _
  refine congrArg _ (funext fun a => Fin.ext ?_)
  have e0 : win0_1.index t (0 : Fin 3) = t.val := congrFun (index1 t) 0
  have e1 : win0_1.index t (1 : Fin 3) = 0 := congrFun (index1 t) 1
  have e2 : win0_1.index t (2 : Fin 3) = 0 := congrFun (index1 t) 2
  match a with
  | ⟨0, _⟩ => show win0_1.index t (0 : Fin 3) * 4 + 1 * q.val = 4 * t.val + q.val; omega
  | ⟨1, _⟩ => show win0_1.index t (1 : Fin 3) * 3 + 1 * o.val = o.val; omega
  | ⟨2, _⟩ => show win0_1.index t (2 : Fin 3) * 1 + 1 * i.val = i.val; omega
theorem block2 (c : Dev nD) (t : Fin cfg0.N) (q : Fin 4) (o : Fin 3) (i : Fin 3) :
    iblk m c 2 t (ix3 q o i) = V m c main_arg2 (ix3 (chan t q) o i) := by
  show V m c main_arg2 (((cfg0.win 2).blk t).view.emb (ix3 q o i)) = _
  refine congrArg _ (funext fun a => Fin.ext ?_)
  have e0 : win0_2.index t (0 : Fin 3) = t.val := congrFun (index2 t) 0
  have e1 : win0_2.index t (1 : Fin 3) = 0 := congrFun (index2 t) 1
  have e2 : win0_2.index t (2 : Fin 3) = 0 := congrFun (index2 t) 2
  match a with
  | ⟨0, _⟩ => show win0_2.index t (0 : Fin 3) * 4 + 1 * q.val = 4 * t.val + q.val; omega
  | ⟨1, _⟩ => show win0_2.index t (1 : Fin 3) * 3 + 1 * o.val = o.val; omega
  | ⟨2, _⟩ => show win0_2.index t (2 : Fin 3) * 3 + 1 * i.val = i.val; omega
theorem block3 (c : Dev nD) (t : Fin cfg0.N) (q : Fin 4) (o : Fin 3) (i : Fin 3) :
    iblk m c 3 t (ix3 q o i) = V m c main_arg3 (ix3 (chan t q) o i) := by
  show V m c main_arg3 (((cfg0.win 3).blk t).view.emb (ix3 q o i)) = _
  refine congrArg _ (funext fun a => Fin.ext ?_)
  have e0 : win0_3.index t (0 : Fin 3) = t.val := congrFun (index3 t) 0
  have e1 : win0_3.index t (1 : Fin 3) = 0 := congrFun (index3 t) 1
  have e2 : win0_3.index t (2 : Fin 3) = 0 := congrFun (index3 t) 2
  match a with
  | ⟨0, _⟩ => show win0_3.index t (0 : Fin 3) * 4 + 1 * q.val = 4 * t.val + q.val; omega
  | ⟨1, _⟩ => show win0_3.index t (1 : Fin 3) * 3 + 1 * o.val = o.val; omega
  | ⟨2, _⟩ => show win0_3.index t (2 : Fin 3) * 3 + 1 * i.val = i.val; omega
theorem block4 (c : Dev nD) (t : Fin cfg0.N) (q : Fin 4) (o : Fin 1) (i : Fin 3) :
    iblk m c 4 t (ix3 q o i) = V m c main_arg4 (ix3 (chan t q) o i) := by
  show V m c main_arg4 (((cfg0.win 4).blk t).view.emb (ix3 q o i)) = _
  refine congrArg _ (funext fun a => Fin.ext ?_)
  have e0 : win0_4.index t (0 : Fin 3) = t.val := congrFun (index4 t) 0
  have e1 : win0_4.index t (1 : Fin 3) = 0 := congrFun (index4 t) 1
  have e2 : win0_4.index t (2 : Fin 3) = 0 := congrFun (index4 t) 2
  match a with
  | ⟨0, _⟩ => show win0_4.index t (0 : Fin 3) * 4 + 1 * q.val = 4 * t.val + q.val; omega
  | ⟨1, _⟩ => show win0_4.index t (1 : Fin 3) * 1 + 1 * o.val = o.val; omega
  | ⟨2, _⟩ => show win0_4.index t (2 : Fin 3) * 3 + 1 * i.val = i.val; omega
theorem block5 (c : Dev nD) (t : Fin cfg0.N) (q : Fin 4) (o : Fin 3) (i : Fin 1) :
    iblk m c 5 t (ix3 q o i) = V m c main_arg5 (ix3 (chan t q) o i) := by
  show V m c main_arg5 (((cfg0.win 5).blk t).view.emb (ix3 q o i)) = _
  refine congrArg _ (funext fun a => Fin.ext ?_)
  have e0 : win0_5.index t (0 : Fin 3) = t.val := congrFun (index5 t) 0
  have e1 : win0_5.index t (1 : Fin 3) = 0 := congrFun (index5 t) 1
  have e2 : win0_5.index t (2 : Fin 3) = 0 := congrFun (index5 t) 2
  match a with
  | ⟨0, _⟩ => show win0_5.index t (0 : Fin 3) * 4 + 1 * q.val = 4 * t.val + q.val; omega
  | ⟨1, _⟩ => show win0_5.index t (1 : Fin 3) * 3 + 1 * o.val = o.val; omega
  | ⟨2, _⟩ => show win0_5.index t (2 : Fin 3) * 1 + 1 * i.val = i.val; omega
theorem block6 (c : Dev nD) (t : Fin cfg0.N) (q : Fin 4) (o : Fin 3) (i : Fin 1) :
    iblk m c 6 t (ix3 q o i) = V m c main_arg6 (ix3 (chan t q) o i) := by
  show V m c main_arg6 (((cfg0.win 6).blk t).view.emb (ix3 q o i)) = _
  refine congrArg _ (funext fun a => Fin.ext ?_)
  have e0 : win0_6.index t (0 : Fin 3) = t.val := congrFun (index6 t) 0
  have e1 : win0_6.index t (1 : Fin 3) = 0 := congrFun (index6 t) 1
  have e2 : win0_6.index t (2 : Fin 3) = 0 := congrFun (index6 t) 2
  match a with
  | ⟨0, _⟩ => show win0_6.index t (0 : Fin 3) * 4 + 1 * q.val = 4 * t.val + q.val; omega
  | ⟨1, _⟩ => show win0_6.index t (1 : Fin 3) * 3 + 1 * o.val = o.val; omega
  | ⟨2, _⟩ => show win0_6.index t (2 : Fin 3) * 1 + 1 * i.val = i.val; omega
theorem block7 (c : Dev nD) (t : Fin cfg0.N) (q : Fin 4) (o : Fin 3) (i : Fin 1) :
    iblk m c 7 t (ix3 q o i) = V m c main_arg7 (ix3 (chan t q) o i) := by
  show V m c main_arg7 (((cfg0.win 7).blk t).view.emb (ix3 q o i)) = _
  refine congrArg _ (funext fun a => Fin.ext ?_)
  have e0 : win0_7.index t (0 : Fin 3) = t.val := congrFun (index7 t) 0
  have e1 : win0_7.index t (1 : Fin 3) = 0 := congrFun (index7 t) 1
  have e2 : win0_7.index t (2 : Fin 3) = 0 := congrFun (index7 t) 2
  match a with
  | ⟨0, _⟩ => show win0_7.index t (0 : Fin 3) * 4 + 1 * q.val = 4 * t.val + q.val; omega
  | ⟨1, _⟩ => show win0_7.index t (1 : Fin 3) * 3 + 1 * o.val = o.val; omega
  | ⟨2, _⟩ => show win0_7.index t (2 : Fin 3) * 1 + 1 * i.val = i.val; omega
theorem block8 (c : Dev nD) (t : Fin cfg0.N) (q : Fin 4) (o : Fin 1) (i : Fin 1) :
    iblk m c 8 t (ix3 q o i) = V m c main_arg8 (ix3 (chan t q) o i) := by
  show V m c main_arg8 (((cfg0.win 8).blk t).view.emb (ix3 q o i)) = _
  refine congrArg _ (funext fun a => Fin.ext ?_)
  have e0 : win0_8.index t (0 : Fin 3) = t.val := congrFun (index8 t) 0
  have e1 : win0_8.index t (1 : Fin 3) = 0 := congrFun (index8 t) 1
  have e2 : win0_8.index t (2 : Fin 3) = 0 := congrFun (index8 t) 2
  match a with
  | ⟨0, _⟩ => show win0_8.index t (0 : Fin 3) * 4 + 1 * q.val = 4 * t.val + q.val; omega
  | ⟨1, _⟩ => show win0_8.index t (1 : Fin 3) * 1 + 1 * o.val = o.val; omega
  | ⟨2, _⟩ => show win0_8.index t (2 : Fin 3) * 1 + 1 * i.val = i.val; omega
theorem block9 (c : Dev nD) (t : Fin cfg0.N) (q : Fin 4) (o : Fin 3) (i : Fin 1) :
    iblk m c 9 t (ix3 q o i) = V m c main_arg9 (ix3 (chan t q) o i) := by
  show V m c main_arg9 (((cfg0.win 9).blk t).view.emb (ix3 q o i)) = _
  refine congrArg _ (funext fun a => Fin.ext ?_)
  have e0 : win0_9.index t (0 : Fin 3) = t.val := congrFun (index9 t) 0
  have e1 : win0_9.index t (1 : Fin 3) = 0 := congrFun (index9 t) 1
  have e2 : win0_9.index t (2 : Fin 3) = 0 := congrFun (index9 t) 2
  match a with
  | ⟨0, _⟩ => show win0_9.index t (0 : Fin 3) * 4 + 1 * q.val = 4 * t.val + q.val; omega
  | ⟨1, _⟩ => show win0_9.index t (1 : Fin 3) * 3 + 1 * o.val = o.val; omega
  | ⟨2, _⟩ => show win0_9.index t (2 : Fin 3) * 1 + 1 * i.val = i.val; omega
theorem block10 (c : Dev nD) (t : Fin cfg0.N) (q : Fin 4) (o : Fin 3) (i : Fin 1) :
    iblk m c 10 t (ix3 q o i) = V m c main_arg10 (ix3 (chan t q) o i) := by
  show V m c main_arg10 (((cfg0.win 10).blk t).view.emb (ix3 q o i)) = _
  refine congrArg _ (funext fun a => Fin.ext ?_)
  have e0 : win0_10.index t (0 : Fin 3) = t.val := congrFun (index10 t) 0
  have e1 : win0_10.index t (1 : Fin 3) = 0 := congrFun (index10 t) 1
  have e2 : win0_10.index t (2 : Fin 3) = 0 := congrFun (index10 t) 2
  match a with
  | ⟨0, _⟩ => show win0_10.index t (0 : Fin 3) * 4 + 1 * q.val = 4 * t.val + q.val; omega
  | ⟨1, _⟩ => show win0_10.index t (1 : Fin 3) * 3 + 1 * o.val = o.val; omega
  | ⟨2, _⟩ => show win0_10.index t (2 : Fin 3) * 1 + 1 * i.val = i.val; omega
theorem block11 (c : Dev nD) (t : Fin cfg0.N) (q : Fin 4) (o : Fin 3) (i : Fin 1) :
    iblk m c 11 t (ix3 q o i) = V m c main_arg11 (ix3 (chan t q) o i) := by
  show V m c main_arg11 (((cfg0.win 11).blk t).view.emb (ix3 q o i)) = _
  refine congrArg _ (funext fun a => Fin.ext ?_)
  have e0 : win0_11.index t (0 : Fin 3) = t.val := congrFun (index11 t) 0
  have e1 : win0_11.index t (1 : Fin 3) = 0 := congrFun (index11 t) 1
  have e2 : win0_11.index t (2 : Fin 3) = 0 := congrFun (index11 t) 2
  match a with
  | ⟨0, _⟩ => show win0_11.index t (0 : Fin 3) * 4 + 1 * q.val = 4 * t.val + q.val; omega
  | ⟨1, _⟩ => show win0_11.index t (1 : Fin 3) * 3 + 1 * o.val = o.val; omega
  | ⟨2, _⟩ => show win0_11.index t (2 : Fin 3) * 1 + 1 * i.val = i.val; omega

/-- Where point t's output block sits in the array. -/
theorem out_emb (t : Fin cfg0.N) (b : Fin 16) (q : Fin 4) (h w : Fin 64) :
    ((cfg0.win 12).blk t).view.emb (ix4 b q h w) = ix4 b (chan t q) h w := by
  funext a
  apply Fin.ext
  have e0 : win0_12.index t (0 : Fin 4) = 0 := congrFun (index12 t) 0
  have e1 : win0_12.index t (1 : Fin 4) = t.val := congrFun (index12 t) 1
  have e2 : win0_12.index t (2 : Fin 4) = 0 := congrFun (index12 t) 2
  have e3 : win0_12.index t (3 : Fin 4) = 0 := congrFun (index12 t) 3
  match a with
  | ⟨0, _⟩ => show win0_12.index t (0 : Fin 4) * 16 + 1 * b.val = b.val; omega
  | ⟨1, _⟩ => show win0_12.index t (1 : Fin 4) * 4 + 1 * q.val = 4 * t.val + q.val; omega
  | ⟨2, _⟩ => show win0_12.index t (2 : Fin 4) * 64 + 1 * h.val = h.val; omega
  | ⟨3, _⟩ => show win0_12.index t (3 : Fin 4) * 64 + 1 * w.val = w.val; omega

/-- The parameters of channel q of point t's blocks are those of channel 4t + q of the arrays. -/
theorem params_block (c : Dev nD) (t : Fin cfg0.N) (q : Fin 4) :
    paramsOf (iblk m c 1 t) (iblk m c 2 t) (iblk m c 3 t) (iblk m c 4 t) (iblk m c 5 t) (iblk m c 6 t) (iblk m c 7 t)
        (iblk m c 8 t) (iblk m c 9 t) (iblk m c 10 t) (iblk m c 11 t) q
      = paramsOf (V m c main_arg1) (V m c main_arg2) (V m c main_arg3) (V m c main_arg4) (V m c main_arg5) (V m c main_arg6)
        (V m c main_arg7) (V m c main_arg8) (V m c main_arg9) (V m c main_arg10) (V m c main_arg11) (chan t q) := by
  unfold paramsOf
  simp only [block1, block2, block3, block4, block5, block6, block7, block8, block9, block10, block11]

/-- What point t writes back is block t of the likelihood array of the arguments as the region finds them. -/
theorem flushed_eq (c : Dev nD) (t : Fin cfg0.N) :
    (dats m 0 c).flushed 12 t
      = ((cfg0.win 12).blk t).view.read (Elt Ideal) (likeArray (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 12).cut (grid0.coords t) ((dats m 0 c).after 12 t) = _
  rw [after0_12]
  funext j
  obtain ⟨b, q, h, w, rfl⟩ : ∃ (b : Fin 16) (q : Fin 4) (h w : Fin 64), j = ix4 b q h w := ⟨j 0, j 1, j 2, j 3, eq_ix4 j⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 b q h w)
    = likeArray (V m c main_arg0) (V m c main_arg1) (V m c main_arg2) (V m c main_arg3) (V m c main_arg4) (V m c main_arg5) (V m c main_arg6) (V m c main_arg7) (V m c main_arg8) (V m c main_arg9) (V m c main_arg10) (V m c main_arg11) (((cfg0.win 12).blk t).view.emb (ix4 b q h w))
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) b q h w).trans ?_
  rw [out_emb, likeArray_apply, params_block, block0]

/-- An index of the array is in point t's block iff each coordinate is in the block's range on its axis. -/
theorem mem_blk (t : Fin cfg0.N) (i : S16x192x64x64.Idx) :
    i ∈ ((cfg0.win 12).blk t).view.set ↔ ∀ a : Fin 4, win0_12.index t a * S16x4x64x64.size a ≤ (i a).val ∧ (i a).val < win0_12.index t a * S16x4x64x64.size a + S16x4x64x64.size a := by
  show i ∈ ((View.whole main_v0).slice (win0_12.rect t)).set ↔ _
  rw [View.set_slice_whole, Rect.mem_set_unit]
  exact Iff.rfl

/-- Every index lies in the block of the point that stages its channel. -/
theorem cover (i : S16x192x64x64.Idx) :
    ∃ t : Fin cfg0.N, (cfg0.win 12).flush t = true ∧ i ∈ ((cfg0.win 12).blk t).view.set := by
  have hi0 : (i 0).val < 16 := (i 0).isLt
  have hi1 : (i 1).val < 192 := (i 1).isLt
  have hi2 : (i 2).val < 64 := (i 2).isLt
  have hi3 : (i 3).val < 64 := (i 3).isLt
  have hN : (i 1).val / 4 < cfg0.N := by rw [show cfg0.N = 48 from N_0]; omega
  refine ⟨⟨(i 1).val / 4, hN⟩, flush0_12 _, ?_⟩
  rw [mem_blk]
  have e0 : win0_12.index ⟨(i 1).val / 4, hN⟩ (0 : Fin 4) = 0 := congrFun (index12 _) 0
  have e1 : win0_12.index ⟨(i 1).val / 4, hN⟩ (1 : Fin 4) = (i 1).val / 4 := congrFun (index12 _) 1
  have e2 : win0_12.index ⟨(i 1).val / 4, hN⟩ (2 : Fin 4) = 0 := congrFun (index12 _) 2
  have e3 : win0_12.index ⟨(i 1).val / 4, hN⟩ (3 : Fin 4) = 0 := congrFun (index12 _) 3
  intro a
  match a with
  | ⟨0, _⟩ => show win0_12.index ⟨(i 1).val / 4, hN⟩ (0 : Fin 4) * 16 ≤ (i 0).val ∧ (i 0).val < win0_12.index ⟨(i 1).val / 4, hN⟩ (0 : Fin 4) * 16 + 16; omega
  | ⟨1, _⟩ => show win0_12.index ⟨(i 1).val / 4, hN⟩ (1 : Fin 4) * 4 ≤ (i 1).val ∧ (i 1).val < win0_12.index ⟨(i 1).val / 4, hN⟩ (1 : Fin 4) * 4 + 4; omega
  | ⟨2, _⟩ => show win0_12.index ⟨(i 1).val / 4, hN⟩ (2 : Fin 4) * 64 ≤ (i 2).val ∧ (i 2).val < win0_12.index ⟨(i 1).val / 4, hN⟩ (2 : Fin 4) * 64 + 64; omega
  | ⟨3, _⟩ => show win0_12.index ⟨(i 1).val / 4, hN⟩ (3 : Fin 4) * 64 ≤ (i 3).val ∧ (i 3).val < win0_12.index ⟨(i 1).val / 4, hN⟩ (3 : Fin 4) * 64 + 64; omega

/-- The output array after the run. -/
theorem final (c : Dev nD) :
    (dats m 0 c).arrAt 12 cfg0.N = likeArray (V m c main_arg0) (V m c main_arg1) (V m c main_arg2) (V m c main_arg3) (V m c main_arg4) (V m c main_arg5) (V m c main_arg6) (V m c main_arg7) (V m c main_arg8) (V m c main_arg9) (V m c main_arg10) (V m c main_arg11) :=
  (dats m 0 c).arrAt_eq_of_cover 12 _ (fun t _ => flushed_eq m c t) cover

/-! ## The run, read -/

theorem post12 (r : PUnit × MemSt nD τ sig (Elt Ideal)) (h : Pipeline.FramePost cfgs (dats m) 0 (V m) r) (c : Dev nD) :
    r.2.mem ((c : Thread nD τ).loc main_v0) = (dats m 0 c).arrAt 12 cfg0.N :=
  (h c).1 12

theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))
theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))
theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))
theorem kept7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))
theorem kept8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))
theorem kept9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))
theorem kept10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))
theorem kept11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- Every weakly fair execution of the kernel's program terminates with the output array at the likelihood array of
    the arguments, the arguments unchanged. -/
theorem run : θ_run defs (onTc (τ := τ) (main (F := Ideal))) ⟨m, fun _ => 0, ρ⟩ fun r => ∀ c : Dev nD,
      r.2.mem ((c : Thread nD τ).loc main_v0) = likeArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(post12 m r h c).trans (final m c),
      kept0 m r h c,
      kept1 m r h c,
      kept2 m r h c,
      kept3 m r h c,
      kept4 m r h c,
      kept5 m r h c,
      kept6 m r h c,
      kept7 m r h c,
      kept8 m r h c,
      kept9 m r h c,
      kept10 m r h c,
      kept11 m r h c⟩)
    (run_main m ρ)

end Cert.KernelIdeal.ArrayValue

end
-- ==== Proof.ReferenceValue.lean ====
/-
  What the reference computes, entry by entry.
-/
import proofs.«168551_j38190849196804_2_alg».proof.Proof.Gen.ReferenceIdeal.Read
import proofs.«168551_j38190849196804_2_alg».proof.Proof.Likelihood
import Idealize.ShloMosaic.Lib.ValueIdx

set_option maxRecDepth 16384

noncomputable section

namespace Cert.ReferenceIdeal.RefValue

open Idealize.ShloMosaic Idealize.ShloMosaic.ValueIdx Cert.ReferenceIdeal Cert.ReferenceIdeal.Read Cert.Bottleneck

/-! ## Where each stage reads its operands -/

theorem idx_v6 (a : Fin 192) (o : Fin 3) (n : Fin 65536) : idx_main_v6 (ix3 a o n) = ix3 a o (0 : Fin 1) :=
  funext fun d => by match d with | ⟨0, _⟩ => rfl | ⟨1, _⟩ => rfl | ⟨2, _⟩ => rfl
theorem idx_v10 (a : Fin 192) (o : Fin 3) (n : Fin 65536) : idx_main_v10 (ix3 a o n) = ix3 a o (0 : Fin 1) :=
  funext fun d => by match d with | ⟨0, _⟩ => rfl | ⟨1, _⟩ => rfl | ⟨2, _⟩ => rfl
theorem idx_v15 (a : Fin 192) (o : Fin 3) (n : Fin 65536) : idx_main_v15 (ix3 a o n) = ix3 a o (0 : Fin 1) :=
  funext fun d => by match d with | ⟨0, _⟩ => rfl | ⟨1, _⟩ => rfl | ⟨2, _⟩ => rfl
theorem idx_v19 (a : Fin 192) (o : Fin 3) (n : Fin 65536) : idx_main_v19 (ix3 a o n) = ix3 a o (0 : Fin 1) :=
  funext fun d => by match d with | ⟨0, _⟩ => rfl | ⟨1, _⟩ => rfl | ⟨2, _⟩ => rfl
theorem idx_v24 (a : Fin 192) (o : Fin 3) (n : Fin 65536) : idx_main_v24 (ix3 a o n) = ix3 a o (0 : Fin 1) :=
  funext fun d => by match d with | ⟨0, _⟩ => rfl | ⟨1, _⟩ => rfl | ⟨2, _⟩ => rfl
theorem idx_v28 (a : Fin 192) (o : Fin 3) (n : Fin 65536) : idx_main_v28 (ix3 a o n) = ix3 a o (0 : Fin 1) :=
  funext fun d => by match d with | ⟨0, _⟩ => rfl | ⟨1, _⟩ => rfl | ⟨2, _⟩ => rfl
theorem idx_v39 (a : Fin 192) (o : Fin 3) (n : Fin 65536) : idx_main_v39 (ix3 a o n) = ix3 a o (0 : Fin 1) :=
  funext fun d => by match d with | ⟨0, _⟩ => rfl | ⟨1, _⟩ => rfl | ⟨2, _⟩ => rfl
theorem idx_v43 (a : Fin 192) (o : Fin 3) (n : Fin 65536) : idx_main_v43 (ix3 a o n) = ix3 a o (0 : Fin 1) :=
  funext fun d => by match d with | ⟨0, _⟩ => rfl | ⟨1, _⟩ => rfl | ⟨2, _⟩ => rfl
theorem idx_v48 (a : Fin 192) (o : Fin 3) (n : Fin 65536) : idx_main_v48 (ix3 a o n) = ix3 a o (0 : Fin 1) :=
  funext fun d => by match d with | ⟨0, _⟩ => rfl | ⟨1, _⟩ => rfl | ⟨2, _⟩ => rfl
theorem idx_v52 (a : Fin 192) (o : Fin 3) (n : Fin 65536) : idx_main_v52 (ix3 a o n) = ix3 a o (0 : Fin 1) :=
  funext fun d => by match d with | ⟨0, _⟩ => rfl | ⟨1, _⟩ => rfl | ⟨2, _⟩ => rfl
theorem idx_v57 (a : Fin 192) (o : Fin 3) (n : Fin 65536) : idx_main_v57 (ix3 a o n) = ix3 a o (0 : Fin 1) :=
  funext fun d => by match d with | ⟨0, _⟩ => rfl | ⟨1, _⟩ => rfl | ⟨2, _⟩ => rfl
theorem idx_v61 (a : Fin 192) (o : Fin 3) (n : Fin 65536) : idx_main_v61 (ix3 a o n) = ix3 a o (0 : Fin 1) :=
  funext fun d => by match d with | ⟨0, _⟩ => rfl | ⟨1, _⟩ => rfl | ⟨2, _⟩ => rfl
theorem idx_v33 (a : Fin 192) (n : Fin 65536) : idx_main_v33 (ix3 a (0 : Fin 1) n) = ix3 a (0 : Fin 1) (0 : Fin 1) :=
  funext fun d => by match d with | ⟨0, _⟩ => rfl | ⟨1, _⟩ => rfl | ⟨2, _⟩ => rfl
theorem idx_v66 (a : Fin 192) (n : Fin 65536) : idx_main_v66 (ix3 a (0 : Fin 1) n) = ix3 a (0 : Fin 1) (0 : Fin 1) :=
  funext fun d => by match d with | ⟨0, _⟩ => rfl | ⟨1, _⟩ => rfl | ⟨2, _⟩ => rfl
theorem lidx_v5 (a : Fin 192) (o : Fin 3) (n : Fin 65536) (k : Fin 1) : lidx_main_v5 (ix3 a o n) k = ix3 a o k :=
  funext fun d => by match d with | ⟨0, _⟩ => rfl | ⟨1, _⟩ => rfl | ⟨2, _⟩ => rfl
theorem ridx_v5 (a : Fin 192) (o : Fin 3) (n : Fin 65536) (k : Fin 1) : ridx_main_v5 (ix3 a o n) k = ix3 a k n :=
  funext fun d => by match d with | ⟨0, _⟩ => rfl | ⟨1, _⟩ => rfl | ⟨2, _⟩ => rfl
theorem lidx_v38 (a : Fin 192) (o : Fin 3) (n : Fin 65536) (k : Fin 1) : lidx_main_v38 (ix3 a o n) k = ix3 a o k :=
  funext fun d => by match d with | ⟨0, _⟩ => rfl | ⟨1, _⟩ => rfl | ⟨2, _⟩ => rfl
theorem ridx_v38 (a : Fin 192) (o : Fin 3) (n : Fin 65536) (k : Fin 1) : ridx_main_v38 (ix3 a o n) k = ix3 a k n :=
  funext fun d => by match d with | ⟨0, _⟩ => rfl | ⟨1, _⟩ => rfl | ⟨2, _⟩ => rfl
theorem lidx_v14 (a : Fin 192) (o : Fin 3) (n : Fin 65536) (k : Fin 3) : lidx_main_v14 (ix3 a o n) k = ix3 a o k :=
  funext fun d => by match d with | ⟨0, _⟩ => rfl | ⟨1, _⟩ => rfl | ⟨2, _⟩ => rfl
theorem ridx_v14 (a : Fin 192) (o : Fin 3) (n : Fin 65536) (k : Fin 3) : ridx_main_v14 (ix3 a o n) k = ix3 a k n :=
  funext fun d => by match d with | ⟨0, _⟩ => rfl | ⟨1, _⟩ => rfl | ⟨2, _⟩ => rfl
theorem lidx_v23 (a : Fin 192) (o : Fin 3) (n : Fin 65536) (k : Fin 3) : lidx_main_v23 (ix3 a o n) k = ix3 a o k :=
  funext fun d => by match d with | ⟨0, _⟩ => rfl | ⟨1, _⟩ => rfl | ⟨2, _⟩ => rfl
theorem ridx_v23 (a : Fin 192) (o : Fin 3) (n : Fin 65536) (k : Fin 3) : ridx_main_v23 (ix3 a o n) k = ix3 a k n :=
  funext fun d => by match d with | ⟨0, _⟩ => rfl | ⟨1, _⟩ => rfl | ⟨2, _⟩ => rfl
theorem lidx_v47 (a : Fin 192) (o : Fin 3) (n : Fin 65536) (k : Fin 3) : lidx_main_v47 (ix3 a o n) k = ix3 a o k :=
  funext fun d => by match d with | ⟨0, _⟩ => rfl | ⟨1, _⟩ => rfl | ⟨2, _⟩ => rfl
theorem ridx_v47 (a : Fin 192) (o : Fin 3) (n : Fin 65536) (k : Fin 3) : ridx_main_v47 (ix3 a o n) k = ix3 a k n :=
  funext fun d => by match d with | ⟨0, _⟩ => rfl | ⟨1, _⟩ => rfl | ⟨2, _⟩ => rfl
theorem lidx_v56 (a : Fin 192) (o : Fin 3) (n : Fin 65536) (k : Fin 3) : lidx_main_v56 (ix3 a o n) k = ix3 a o k :=
  funext fun d => by match d with | ⟨0, _⟩ => rfl | ⟨1, _⟩ => rfl | ⟨2, _⟩ => rfl
theorem ridx_v56 (a : Fin 192) (o : Fin 3) (n : Fin 65536) (k : Fin 3) : ridx_main_v56 (ix3 a o n) k = ix3 a k n :=
  funext fun d => by match d with | ⟨0, _⟩ => rfl | ⟨1, _⟩ => rfl | ⟨2, _⟩ => rfl
theorem lidx_v32 (a : Fin 192) (n : Fin 65536) (k : Fin 3) : lidx_main_v32 (ix3 a (0 : Fin 1) n) k = ix3 a (0 : Fin 1) k :=
  funext fun d => by match d with | ⟨0, _⟩ => rfl | ⟨1, _⟩ => rfl | ⟨2, _⟩ => rfl
theorem ridx_v32 (a : Fin 192) (n : Fin 65536) (k : Fin 3) : ridx_main_v32 (ix3 a (0 : Fin 1) n) k = ix3 a k n :=
  funext fun d => by match d with | ⟨0, _⟩ => rfl | ⟨1, _⟩ => rfl | ⟨2, _⟩ => rfl
theorem lidx_v65 (a : Fin 192) (n : Fin 65536) (k : Fin 3) : lidx_main_v65 (ix3 a (0 : Fin 1) n) k = ix3 a (0 : Fin 1) k :=
  funext fun d => by match d with | ⟨0, _⟩ => rfl | ⟨1, _⟩ => rfl | ⟨2, _⟩ => rfl
theorem ridx_v65 (a : Fin 192) (n : Fin 65536) (k : Fin 3) : ridx_main_v65 (ix3 a (0 : Fin 1) n) k = ix3 a k n :=
  funext fun d => by match d with | ⟨0, _⟩ => rfl | ⟨1, _⟩ => rfl | ⟨2, _⟩ => rfl

set_option maxHeartbeats 4000000 in
theorem flat_at (x0 : (⟨S16x192x64x64, .f32⟩ : BufTy).Contents (Elt Ideal)) (x1 : (⟨S192x3x1, .f32⟩ : BufTy).Contents (Elt Ideal))
    (x2 x3 : (⟨S192x3x3, .f32⟩ : BufTy).Contents (Elt Ideal)) (x4 : (⟨S192x1x3, .f32⟩ : BufTy).Contents (Elt Ideal))
    (x5 x6 x7 : (⟨S192x3x1, .f32⟩ : BufTy).Contents (Elt Ideal)) (x8 : (⟨S192x1x1, .f32⟩ : BufTy).Contents (Elt Ideal))
    (x9 x10 x11 : (⟨S192x3x1, .f32⟩ : BufTy).Contents (Elt Ideal)) (a : Fin 192) (n : Fin 65536) :
    val_main_v88 (F := Ideal) x0 x1 x2 x3 x4 x5 x6 x7 x8 x9 x10 x11 (ix3 a (0 : Fin 1) n)
      = like (paramsOf x1 x2 x3 x4 x5 x6 x7 x8 x9 x10 x11 a) (val_main_v1 (F := Ideal) x0 (ix3 a (0 : Fin 1) n)) := by
  simp only [
    val_main_cst_apply, val_main_v2_apply, val_main_v3_apply, val_main_call0_cst_apply, val_main_call0_v0_apply, val_main_call0_v1_apply,
    val_main_call0_v2_apply, val_main_call0_v3_apply, val_main_call0_v4_apply, val_main_call0_v5_apply, val_main_call0_v6_apply, val_main_call0_v7_apply,
    val_main_call0_v8_apply, val_main_call0_v9_apply, val_main_call0_v10_apply, val_main_call0_v11_apply, val_main_v4_apply, val_main_v5_apply,
    val_main_v6_apply, val_main_v7_apply, val_main_v8_apply, val_main_v9_apply, val_main_v10_apply, val_main_v11_apply,
    val_main_v12_apply, val_main_call1_cst_apply, val_main_call1_v0_apply, val_main_call1_v1_apply, val_main_call1_v2_apply, val_main_call1_v3_apply,
    val_main_call1_v4_apply, val_main_call1_v5_apply, val_main_call1_v6_apply, val_main_call1_v7_apply, val_main_call1_v8_apply, val_main_call1_v9_apply,
    val_main_call1_v10_apply, val_main_call1_v11_apply, val_main_v13_apply, val_main_v14_apply, val_main_v15_apply, val_main_v16_apply,
    val_main_v17_apply, val_main_v18_apply, val_main_v19_apply, val_main_v20_apply, val_main_v21_apply, val_main_call2_cst_apply,
    val_main_call2_v0_apply, val_main_call2_v1_apply, val_main_call2_v2_apply, val_main_call2_v3_apply, val_main_call2_v4_apply, val_main_call2_v5_apply,
    val_main_call2_v6_apply, val_main_call2_v7_apply, val_main_call2_v8_apply, val_main_call2_v9_apply, val_main_call2_v10_apply, val_main_call2_v11_apply,
    val_main_v22_apply, val_main_v23_apply, val_main_v24_apply, val_main_v25_apply, val_main_v26_apply, val_main_v27_apply,
    val_main_v28_apply, val_main_v29_apply, val_main_v30_apply, val_main_call3_cst_apply, val_main_call3_v0_apply, val_main_call3_v1_apply,
    val_main_call3_v2_apply, val_main_call3_v3_apply, val_main_call3_v4_apply, val_main_call3_v5_apply, val_main_call3_v6_apply, val_main_call3_v7_apply,
    val_main_call3_v8_apply, val_main_call3_v9_apply, val_main_call3_v10_apply, val_main_call3_v11_apply, val_main_v31_apply, val_main_v32_apply,
    val_main_v33_apply, val_main_v34_apply, val_main_cst_0_apply, val_main_v35_apply, val_main_v36_apply, val_main_call4_cst_apply,
    val_main_call4_v0_apply, val_main_call4_v1_apply, val_main_call4_v2_apply, val_main_call4_v3_apply, val_main_call4_v4_apply, val_main_call4_v5_apply,
    val_main_call4_v6_apply, val_main_call4_v7_apply, val_main_call4_v8_apply, val_main_call4_v9_apply, val_main_call4_v10_apply, val_main_call4_v11_apply,
    val_main_v37_apply, val_main_v38_apply, val_main_v39_apply, val_main_v40_apply, val_main_v41_apply, val_main_v42_apply,
    val_main_v43_apply, val_main_v44_apply, val_main_v45_apply, val_main_call5_cst_apply, val_main_call5_v0_apply, val_main_call5_v1_apply,
    val_main_call5_v2_apply, val_main_call5_v3_apply, val_main_call5_v4_apply, val_main_call5_v5_apply, val_main_call5_v6_apply, val_main_call5_v7_apply,
    val_main_call5_v8_apply, val_main_call5_v9_apply, val_main_call5_v10_apply, val_main_call5_v11_apply, val_main_v46_apply, val_main_v47_apply,
    val_main_v48_apply, val_main_v49_apply, val_main_v50_apply, val_main_v51_apply, val_main_v52_apply, val_main_v53_apply,
    val_main_v54_apply, val_main_call6_cst_apply, val_main_call6_v0_apply, val_main_call6_v1_apply, val_main_call6_v2_apply, val_main_call6_v3_apply,
    val_main_call6_v4_apply, val_main_call6_v5_apply, val_main_call6_v6_apply, val_main_call6_v7_apply, val_main_call6_v8_apply, val_main_call6_v9_apply,
    val_main_call6_v10_apply, val_main_call6_v11_apply, val_main_v55_apply, val_main_v56_apply, val_main_v57_apply, val_main_v58_apply,
    val_main_v59_apply, val_main_v60_apply, val_main_v61_apply, val_main_v62_apply, val_main_v63_apply, val_main_call7_cst_apply,
    val_main_call7_v0_apply, val_main_call7_v1_apply, val_main_call7_v2_apply, val_main_call7_v3_apply, val_main_call7_v4_apply, val_main_call7_v5_apply,
    val_main_call7_v6_apply, val_main_call7_v7_apply, val_main_call7_v8_apply, val_main_call7_v9_apply, val_main_call7_v10_apply, val_main_call7_v11_apply,
    val_main_v64_apply, val_main_v65_apply, val_main_v66_apply, val_main_v67_apply, val_main_v68_apply, val_main_v69_apply,
    val_main_v70_apply, val_main_v71_apply, val_main_v72_apply, val_main_v73_apply, val_main_cst_1_apply, val_main_v74_apply,
    val_main_v75_apply, val_main_cst_2_apply, val_main_v76_apply, val_main_v77_apply, val_main_v78_apply, val_main_v79_apply,
    val_main_v80_apply, val_main_cst_3_apply, val_main_v81_apply, val_main_v82_apply, val_main_cst_4_apply, val_main_v83_apply,
    val_main_v84_apply, val_main_v85_apply, val_main_v86_apply, val_main_cst_5_apply, val_main_v87_apply, val_main_v88_apply,
    idx_v6, idx_v10, idx_v15, idx_v19, idx_v24, idx_v28,
    idx_v39, idx_v43, idx_v48, idx_v52, idx_v57, idx_v61,
    idx_v33, idx_v66, lidx_v5, ridx_v5, lidx_v38, ridx_v38,
    lidx_v14, ridx_v14, lidx_v23, ridx_v23, lidx_v47, ridx_v47,
    lidx_v56, ridx_v56, lidx_v32, ridx_v32, lidx_v65, ridx_v65,
    Fin.sum_univ_three, Fin.sum_univ_one]
  simp only [Ideal.ofBits_def, Ideal.addf_def, Ideal.subf_def, Ideal.mulf_def, Ideal.maximumf_def, Ideal.negf_def,
    Ideal.hostNegf_def, Ideal.hostAbsf_def, Ideal.hostDivf_def, absf_ideal, cmpf_ideal, Ideal.hostUnary_exp_def,
    Ideal.hostUnary_tanh_def, Ideal.hostUnary_log1p_def, Ideal.hostUnary_sign_def, sp_reference, logistic_reference]
  simp only [like, ofLogits, cum, logit, layer2, layer1, layer0, gate, paramsOf]

/-- The reference's result at (b, c, h, w): the flattened position of (b, h, w) inside channel c's row is
    (b * 64 + h) * 64 + w, both for the input laid out channel-first and for the output laid back. -/
theorem result_at (x0 : (⟨S16x192x64x64, .f32⟩ : BufTy).Contents (Elt Ideal)) (x1 : (⟨S192x3x1, .f32⟩ : BufTy).Contents (Elt Ideal))
    (x2 x3 : (⟨S192x3x3, .f32⟩ : BufTy).Contents (Elt Ideal)) (x4 : (⟨S192x1x3, .f32⟩ : BufTy).Contents (Elt Ideal))
    (x5 x6 x7 : (⟨S192x3x1, .f32⟩ : BufTy).Contents (Elt Ideal)) (x8 : (⟨S192x1x1, .f32⟩ : BufTy).Contents (Elt Ideal))
    (x9 x10 x11 : (⟨S192x3x1, .f32⟩ : BufTy).Contents (Elt Ideal)) (b : Fin 16) (c : Fin 192) (h w : Fin 64) :
    val_main_v90 (F := Ideal) x0 x1 x2 x3 x4 x5 x6 x7 x8 x9 x10 x11 (ix4 b c h w)
      = like (paramsOf x1 x2 x3 x4 x5 x6 x7 x8 x9 x10 x11 c) (x0 (ix4 b c h w)) := by
  have hb := b.isLt
  have hc := c.isLt
  have hh := h.isLt
  have hw := w.isLt
  have hn : (b.val * 64 + h.val) * 64 + w.val < 65536 := by omega
  have hJ : idx_main_v89 (idx_main_v90 (ix4 b c h w)) = ix3 c (0 : Fin 1) (⟨(b.val * 64 + h.val) * 64 + w.val, hn⟩ : Fin 65536) := by
    funext d
    apply Fin.ext
    match d with
    | ⟨0, _⟩ =>
      show (((c.val * 16 + b.val) * 64 + h.val) * 64 + w.val) / 65536 = c.val
      omega
    | ⟨1, _⟩ => rfl
    | ⟨2, _⟩ =>
      show (((c.val * 16 + b.val) * 64 + h.val) * 64 + w.val) % 65536 = (b.val * 64 + h.val) * 64 + w.val
      omega
  rw [val_main_v90_apply, val_main_v89_apply, hJ, flat_at, val_main_v1_apply, val_main_v0_apply]
  congr 2
  funext d
  apply Fin.ext
  match d with
  | ⟨0, _⟩ =>
    show ((c.val * 1 + 0) * 65536 + ((b.val * 64 + h.val) * 64 + w.val)) / 4096 % 16 = b.val
    omega
  | ⟨1, _⟩ =>
    show ((c.val * 1 + 0) * 65536 + ((b.val * 64 + h.val) * 64 + w.val)) / 65536 = c.val
    omega
  | ⟨2, _⟩ =>
    show ((c.val * 1 + 0) * 65536 + ((b.val * 64 + h.val) * 64 + w.val)) / 64 % 64 = h.val
    omega
  | ⟨3, _⟩ =>
    show ((c.val * 1 + 0) * 65536 + ((b.val * 64 + h.val) * 64 + w.val)) % 64 = w.val
    omega

end Cert.ReferenceIdeal.RefValue

end
-- ==== Proof.lean ====
/-
  The likelihood kernel against its reference: both compute, at every entry (b, c, h, w), the same scalar function of
  the activation x (b, c, h, w) and of channel c's parameters.

  For one channel the cumulative logit of a shifted activation z is a four-layer chain (Proof/Likelihood.lean): three
  gated layers t + tanh f * tanh t over affine maps with softplus-positive weights, then an affine read-out.  The
  likelihood is max |sigmoid (s * up) - sigmoid (s * lo)| floor with lo, up the logits at x - 1/2, x + 1/2 and
  s = -sign (lo + up).

  The kernel works on blocks of four channels in the array's own layout and writes each three-term affine map as
  explicit products of broadcast coefficients; the reference moves channels first, flattens batch and space into one
  axis of 65536 and writes the affine maps as batched contractions over an axis of 1 or 3.  Over the extended reals a
  contraction over three terms is the sum a0 + a1 + a2 in the kernel's own grouping, and the remaining differences
  are spellings of one function: 0 - y against -y, the sigmoid against 1 / (1 + exp (-x)), the sign rebuilt from two
  comparisons against the sign itself, and two inequality tests of a value against itself, both false where there is
  no NaN.  None of this needs the inputs to be finite.

  Proof/KernelValue.lean reads the kernel's block entry by entry, Proof/KernelArray.lean carries the blocks to the
  array (entry (b, q, h, w) of grid point t's block is entry (b, 4t + q, h, w)), Proof/ReferenceValue.lean reads the
  reference's result through its two relayouts, and the claims below join them.
-/
import proofs.«168551_j38190849196804_2_alg».proof.Defs
import proofs.«168551_j38190849196804_2_alg».proof.Proof.Gen.Kernel
import proofs.«168551_j38190849196804_2_alg».proof.Proof.Gen.Kernel.Skeleton
import proofs.«168551_j38190849196804_2_alg».proof.Proof.Gen.Kernel.Launch
import proofs.«168551_j38190849196804_2_alg».proof.Proof.Gen.Kernel.Points
import proofs.«168551_j38190849196804_2_alg».proof.Proof.Gen.Kernel.Frame
import proofs.«168551_j38190849196804_2_alg».proof.Proof.Gen.KernelIdeal
import proofs.«168551_j38190849196804_2_alg».proof.Proof.Gen.KernelIdeal.Skeleton
import proofs.«168551_j38190849196804_2_alg».proof.Proof.Gen.KernelIdeal.Launch
import proofs.«168551_j38190849196804_2_alg».proof.Proof.Gen.KernelIdeal.Points
import proofs.«168551_j38190849196804_2_alg».proof.Proof.Gen.KernelIdeal.Frame
import proofs.«168551_j38190849196804_2_alg».proof.Proof.Gen.ReferenceIdeal
import proofs.«168551_j38190849196804_2_alg».proof.Proof.Gen.Pre_finite_inputs
import proofs.«168551_j38190849196804_2_alg».proof.Proof.Gen.ReferenceIdeal.Run
import proofs.«168551_j38190849196804_2_alg».proof.Proof.Gen.ReferenceIdeal.Read
import proofs.«168551_j38190849196804_2_alg».proof.Proof.KernelArray
import proofs.«168551_j38190849196804_2_alg».proof.Proof.ReferenceValue
import Idealize.ShloMosaic.Adequacy
import Idealize.ShloMosaic.Init

noncomputable section

namespace Cert.Proof

open Idealize.ShloMosaic Idealize.ShloMosaic.TcCoe Idealize.SL.Sem Idealize.ShloMosaic.ValueIdx Cert.Bottleneck

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: 1 with the sign bit of v, read as -1 or 1 by v < 0. -/
theorem preserves : Cert.preserves_Kernel_KernelIdeal :=
  IdealRules.sign_bit.statement Cert.KernelIdeal.S16x4x64x64 .f32

/-- Both programs end with the likelihood array of the arguments. -/
theorem algebraic : Cert.algebraic_KernelIdeal_ReferenceIdeal := by
  intro m ρ m' ρ' _ hagree
  refine ⟨fun c => likeArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v90_eq, h0, h1, h2, h3, h4, h5, h6, h7, h8, h9, h10, h11]
  funext i
  obtain ⟨b, q, h, w, rfl⟩ : ∃ (b : Fin 16) (q : Fin 192) (h w : Fin 64), i = ix4 b q h w :=
    ⟨i 0, i 1, i 2, i 3, eq_ix4 i⟩
  exact Cert.ReferenceIdeal.RefValue.result_at _ _ _ _ _ _ _ _ _ _ _ _ b q h w

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
